-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x6000x4 : Shape := ⟨3, ![16, 6000, 4]⟩
abbrev S16x512 : Shape := ⟨2, ![16, 512]⟩
abbrev S16x512x4 : Shape := ⟨3, ![16, 512, 4]⟩
abbrev S_ : Shape := ⟨0, ![]⟩

class Facts : Prop where
  bcast_S_S16x6000x4 : S_.BroadcastsInDim S16x6000x4 (![] : Fin 0 → Fin S16x6000x4.rank)
  reducesTo_S16x6000x4_S_d0_1_2 : S16x6000x4.ReducesTo [0, 1, 2] S_
  h_S_ : 0 < S_.numel
  bcast_S_S16x512x4 : S_.BroadcastsInDim S16x512x4 (![] : Fin 0 → Fin S16x512x4.rank)
  reducesTo_S16x512x4_S_d0_1_2 : S16x512x4.ReducesTo [0, 1, 2] S_

variable [Facts]

def fn {F : FTy → Type} [FloatOps F] (main_arg0 : FVec F S16x6000x4 .f32) (main_arg1 : IVec S16x512 32) (main_arg2 : FVec F S16x512x4 .f32) : IVec S_ 1 :=
  let main_v0 : FVec F S16x6000x4 .f32 := Host.absf main_arg0
  let main_cst : FVec F S_ .f32 := constant S_ .f32 0x7F800000#32
  let main_v1 : FVec F S16x6000x4 .f32 := broadcastInDim S16x6000x4 ![] bcast_S_S16x6000x4 main_cst
  let main_v2 : IVec S16x6000x4 1 := cmpf .olt main_v0 main_v1
  let main_c : IVec S_ 1 := constantI S_ 1 1#1
  let main_v3 : IVec S_ 1 := (fun x v => Host.reduce IntOp.andi x v reducesTo_S16x6000x4_S_d0_1_2 h_S_) main_v2 main_c
  let main_v4 : FVec F S16x512x4 .f32 := Host.absf main_arg2
  let main_cst_0 : FVec F S_ .f32 := constant S_ .f32 0x7F800000#32
  let main_v5 : FVec F S16x512x4 .f32 := broadcastInDim S16x512x4 ![] bcast_S_S16x512x4 main_cst_0
  let main_v6 : IVec S16x512x4 1 := cmpf .olt main_v4 main_v5
  let main_c_1 : IVec S_ 1 := constantI S_ 1 1#1
  let main_v7 : IVec S_ 1 := (fun x v => Host.reduce IntOp.andi x v reducesTo_S16x512x4_S_d0_1_2 h_S_) main_v6 main_c_1
  let main_v8 : IVec S_ 1 := andi main_v3 main_v7
  main_v8
-- ==== Kernel.lean ====
abbrev S16x6000x4 : Shape := ⟨3, ![16, 6000, 4]⟩
abbrev S16x512 : Shape := ⟨2, ![16, 512]⟩
abbrev S16x512x4 : Shape := ⟨3, ![16, 512, 4]⟩
abbrev S_ : Shape := ⟨0, ![]⟩
abbrev S16x6144x4 : Shape := ⟨3, ![16, 6144, 4]⟩
abbrev S16x4x6144 : Shape := ⟨3, ![16, 4, 6144]⟩
abbrev S16x512x1 : Shape := ⟨3, ![16, 512, 1]⟩
abbrev S16x1x6144 : Shape := ⟨3, ![16, 1, 6144]⟩
abbrev S1x4x768 : Shape := ⟨3, ![1, 4, 768]⟩
abbrev S1x512x4 : Shape := ⟨3, ![1, 512, 4]⟩
abbrev S1x512x1 : Shape := ⟨3, ![1, 512, 1]⟩
abbrev S1x1x768 : Shape := ⟨3, ![1, 1, 768]⟩
abbrev S4x768 : Shape := ⟨2, ![4, 768]⟩
abbrev S512x4 : Shape := ⟨2, ![512, 4]⟩
abbrev S512x1 : Shape := ⟨2, ![512, 1]⟩
abbrev S1x768 : Shape := ⟨2, ![1, 768]⟩
abbrev S512x768 : Shape := ⟨2, ![512, 768]⟩
abbrev S768 : Shape := ⟨1, ![768]⟩
abbrev S16x1x6000 : Shape := ⟨3, ![16, 1, 6000]⟩
abbrev S16x6000 : Shape := ⟨2, ![16, 6000]⟩
abbrev S16x2x6000 : Shape := ⟨3, ![16, 2, 6000]⟩

abbrev nBuf : Space → Nat
  | .hbm => 46
  | .vmem => 16
  | .smem => 0
  | _ => 0

abbrev bufTy : (tb : Table) → Fin (tcTables nBuf tb) → BufTy
  | .hbm, ⟨0, _⟩ => ⟨S16x6000x4, .f32⟩
  | .hbm, ⟨1, _⟩ => ⟨S16x512, .i32⟩
  | .hbm, ⟨2, _⟩ => ⟨S16x512x4, .f32⟩
  | .hbm, ⟨3, _⟩ => ⟨S_, .i32⟩
  | .hbm, ⟨4, _⟩ => ⟨S_, .f32⟩
  | .hbm, ⟨5, _⟩ => ⟨S16x6144x4, .f32⟩
  | .hbm, ⟨6, _⟩ => ⟨S16x4x6144, .f32⟩
  | .hbm, ⟨7, _⟩ => ⟨S16x512x4, .f32⟩
  | .hbm, ⟨8, _⟩ => ⟨S_, .f32⟩
  | .hbm, ⟨9, _⟩ => ⟨S16x512, .f32⟩
  | .hbm, ⟨10, _⟩ => ⟨S_, .f32⟩
  | .hbm, ⟨11, _⟩ => ⟨S16x512, .f32⟩
  | .hbm, ⟨12, _⟩ => ⟨S16x512, .i1⟩
  | .hbm, ⟨13, _⟩ => ⟨S_, .i32⟩
  | .hbm, ⟨14, _⟩ => ⟨S16x512, .i32⟩
  | .hbm, ⟨15, _⟩ => ⟨S16x512, .i1⟩
  | .hbm, ⟨16, _⟩ => ⟨S16x512, .i1⟩
  | .hbm, ⟨17, _⟩ => ⟨S_, .i32⟩
  | .hbm, ⟨18, _⟩ => ⟨S16x512, .i32⟩
  | .hbm, ⟨19, _⟩ => ⟨S16x512, .i1⟩
  | .hbm, ⟨20, _⟩ => ⟨S16x512, .i1⟩
  | .hbm, ⟨21, _⟩ => ⟨S16x512, .f32⟩
  | .hbm, ⟨22, _⟩ => ⟨S16x512x1, .f32⟩
  | .hbm, ⟨23, _⟩ => ⟨S16x512, .f32⟩
  | .hbm, ⟨24, _⟩ => ⟨S16x512x1, .f32⟩
  | .hbm, ⟨25, _⟩ => ⟨S16x1x6144, .f32⟩
  | .hbm, ⟨26, _⟩ => ⟨S16x1x6144, .f32⟩
  | .hbm, ⟨27, _⟩ => ⟨S16x1x6144, .f32⟩
  | .hbm, ⟨28, _⟩ => ⟨S16x1x6144, .f32⟩
  | .hbm, ⟨29, _⟩ => ⟨S16x1x6000, .f32⟩
  | .hbm, ⟨30, _⟩ => ⟨S16x6000, .f32⟩
  | .hbm, ⟨31, _⟩ => ⟨S16x1x6000, .f32⟩
  | .hbm, ⟨32, _⟩ => ⟨S16x6000, .f32⟩
  | .hbm, ⟨33, _⟩ => ⟨S16x1x6000, .f32⟩
  | .hbm, ⟨34, _⟩ => ⟨S16x6000, .f32⟩
  | .hbm, ⟨35, _⟩ => ⟨S_, .f32⟩
  | .hbm, ⟨36, _⟩ => ⟨S16x6000, .f32⟩
  | .hbm, ⟨37, _⟩ => ⟨S16x6000, .i1⟩
  | .hbm, ⟨38, _⟩ => ⟨S16x1x6000, .f32⟩
  | .hbm, ⟨39, _⟩ => ⟨S16x6000, .f32⟩
  | .hbm, ⟨40, _⟩ => ⟨S_, .f32⟩
  | .hbm, ⟨41, _⟩ => ⟨S16x6000, .f32⟩
  | .hbm, ⟨42, _⟩ => ⟨S16x6000, .i1⟩
  | .hbm, ⟨43, _⟩ => ⟨S16x1x6000, .f32⟩
  | .hbm, ⟨44, _⟩ => ⟨S16x1x6000, .f32⟩
  | .hbm, ⟨45, _⟩ => ⟨S16x2x6000, .f32⟩
  | .local _ .vmem, ⟨0, _⟩ => ⟨S1x4x768, .f32⟩
  | .local _ .vmem, ⟨1, _⟩ => ⟨S1x4x768, .f32⟩
  | .local _ .vmem, ⟨2, _⟩ => ⟨S1x512x4, .f32⟩
  | .local _ .vmem, ⟨3, _⟩ => ⟨S1x512x4, .f32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1x1x768, .f32⟩
  | .local _ .vmem, ⟨9, _⟩ => ⟨S1x1x768, .f32⟩
  | .local _ .vmem, ⟨10, _⟩ => ⟨S1x1x768, .f32⟩
  | .local _ .vmem, ⟨11, _⟩ => ⟨S1x1x768, .f32⟩
  | .local _ .vmem, ⟨12, _⟩ => ⟨S1x1x768, .f32⟩
  | .local _ .vmem, ⟨13, _⟩ => ⟨S1x1x768, .f32⟩
  | .local _ .vmem, ⟨14, _⟩ => ⟨S1x1x768, .f32⟩
  | .local _ .vmem, ⟨15, _⟩ => ⟨S1x1x768, .f32⟩
  | _, _ => ⟨S16x6000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  pads_S16x6000x4_S16x6144x4_000_01440_000 : S16x6000x4.Pads (![0, 0, 0] : Fin 3 → Nat) ![0, 144, 0] ![0, 0, 0] S16x6144x4
  h_S_ : 0 < S_.numel
  transposes_S16x6144x4_S16x4x6144_0_2_1 : S16x6144x4.Transposes [0, 2, 1] S16x4x6144
  reducesTo_S16x512x4_S16x512_d2 : S16x512x4.ReducesTo [2] S16x512
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  inb_S1x4x768_S1x4x768_0_0_0 : ∀ a, (![0, 0, 0] : Fin 3 → Nat) a + S1x4x768.size a ≤ S1x4x768.size a
  h_S1x4x768 : 0 < S1x4x768.numel
  shapeCasts_S1x4x768_S4x768 : S1x4x768.ShapeCasts S4x768
  inb_S1x512x4_S1x512x4_0_0_0 : ∀ a, (![0, 0, 0] : Fin 3 → Nat) a + S1x512x4.size a ≤ S1x512x4.size a
  h_S1x512x4 : 0 < S1x512x4.numel
  shapeCasts_S1x512x4_S512x4 : S1x512x4.ShapeCasts S512x4
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  slices_S4x768_o0_0_S1x768 : S4x768.Slices ![0, 0] S1x768
  slices_S4x768_o1_0_S1x768 : S4x768.Slices ![1, 0] S1x768
  slices_S4x768_o2_0_S1x768 : S4x768.Slices ![2, 0] S1x768
  slices_S4x768_o3_0_S1x768 : S4x768.Slices ![3, 0] S1x768
  slices_S512x4_o0_0_S512x1 : S512x4.Slices ![0, 0] S512x1
  slices_S512x4_o0_1_S512x1 : S512x4.Slices ![0, 1] S512x1
  slices_S512x4_o0_2_S512x1 : S512x4.Slices ![0, 2] S512x1
  slices_S512x4_o0_3_S512x1 : S512x4.Slices ![0, 3] S512x1
  broadcasts_S1x768_S512x768 : S1x768.Broadcasts S512x768
  broadcasts_S512x1_S512x768 : S512x1.Broadcasts S512x768
  reduces_S512x768_S768 : S512x768.Reduces [0] S768
  shapeCasts_S768_S1x768 : S768.ShapeCasts S1x768
  reduces_S4x768_S768 : S4x768.Reduces [0] S768
  inb_S1x1x768_S1x1x768_0_0_0 : ∀ a, (![0, 0, 0] : Fin 3 → Nat) a + S1x1x768.size a ≤ S1x1x768.size a
  h_S1x1x768 : 0 < S1x1x768.numel
  shapeCasts_S1x1x768_S1x768 : S1x1x768.ShapeCasts S1x768
  shapeCasts_S1x768_S1x1x768 : S1x768.ShapeCasts S1x1x768
  natLt_1_32 : 1 < 32
  slices_S16x1x6144_S16x1x6000_0_0_0 : S16x1x6144.Slices ![0, 0, 0] S16x1x6000
  shapeCasts_S16x1x6000_S16x6000 : S16x1x6000.ShapeCasts S16x6000
  bcast_S_S16x6000 : S_.BroadcastsInDim S16x6000 (![] : Fin 0 → Fin S16x6000.rank)
  bcast_S16x6000_S16x1x6000_0_2 : S16x6000.BroadcastsInDim S16x1x6000 (![0, 2] : Fin 2 → Fin S16x1x6000.rank)
  concatenates_S16x1x6000_S16x1x6000_S16x2x6000_d1 : Shape.Concatenates [S16x1x6000, S16x1x6000] S16x2x6000 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x768.size a ≤ S16x4x6144.size a
  hwx0_0 : ∀ i : grid0.Coords, EltTy.bits .f32 = 32 ∨ (Rect.block (s := S16x4x6144) S1x4x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4.size a ≤ S16x512x4.size a
  hwx0_1 : ∀ i : grid0.Coords, EltTy.bits .f32 = 32 ∨ (Rect.block (s := S16x512x4) S1x512x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S16x512x1.size a
  hwx0_2 : ∀ i : grid0.Coords, EltTy.bits .f32 = 32 ∨ (Rect.block (s := S16x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S16x512x1.size a
  hwx0_3 : ∀ i : grid0.Coords, EltTy.bits .f32 = 32 ∨ (Rect.block (s := S16x512x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x768.size a ≤ S16x1x6144.size a
  hwx0_4 : ∀ i : grid0.Coords, EltTy.bits .f32 = 32 ∨ (Rect.block (s := S16x1x6144) S1x1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x768.size a ≤ S16x1x6144.size a
  hwx0_5 : ∀ i : grid0.Coords, EltTy.bits .f32 = 32 ∨ (Rect.block (s := S16x1x6144) S1x1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x768.size a ≤ S16x1x6144.size a
  hwx0_6 : ∀ i : grid0.Coords, EltTy.bits .f32 = 32 ∨ (Rect.block (s := S16x1x6144) S1x1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x768.size a ≤ S16x1x6144.size a
  hwx0_7 : ∀ i : grid0.Coords, EltTy.bits .f32 = 32 ∨ (Rect.block (s := S16x1x6144) S1x1x768.size (cc0_transform_7 i) (hinb0_7 i)).WholeWords (EltTy.packing .f32)

variable [Facts₀]

abbrev win0_0 : Pipeline.Window sig grid0 :=
  Pipeline.Window.ofSpec (Memref.whole main_v1) S1x4x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S1x1x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1x1x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_2) S1x1x768.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_3) S1x1x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x6000x4 : Shape := ⟨3, ![16, 6000, 4]⟩
abbrev S16x512 : Shape := ⟨2, ![16, 512]⟩
abbrev S16x512x4 : Shape := ⟨3, ![16, 512, 4]⟩
abbrev S_ : Shape := ⟨0, ![]⟩
abbrev S16x6000 : Shape := ⟨2, ![16, 6000]⟩
abbrev S16x6000x1x4 : Shape := ⟨4, ![16, 6000, 1, 4]⟩
abbrev S16x1x512x4 : Shape := ⟨4, ![16, 1, 512, 4]⟩
abbrev S16x6000x1x1 : Shape := ⟨4, ![16, 6000, 1, 1]⟩
abbrev S16x6000x1 : Shape := ⟨3, ![16, 6000, 1]⟩
abbrev S16x1x512x1 : Shape := ⟨4, ![16, 1, 512, 1]⟩
abbrev S16x1x512 : Shape := ⟨3, ![16, 1, 512]⟩
abbrev S16x6000x512 : Shape := ⟨3, ![16, 6000, 512]⟩
abbrev S16x1x6000 : Shape := ⟨3, ![16, 1, 6000]⟩
abbrev S16x2x6000 : Shape := ⟨3, ![16, 2, 6000]⟩

abbrev nBuf : Space → Nat
  | .hbm => 131
  | .vmem => 0
  | .smem => 0
  | _ => 0

abbrev hbmTy0_0 (i : Nat) : BufTy := match i % 128 with
  | 0 => ⟨S16x6000x4, .f32⟩
  | 1 => ⟨S16x512, .i32⟩
  | 2 => ⟨S16x512x4, .f32⟩
  | 3 => ⟨S16x6000x4, .f32⟩
  | 4 => ⟨S_, .f32⟩
  | 5 => ⟨S16x6000, .f32⟩
  | 6 => ⟨S_, .f32⟩
  | 7 => ⟨S16x6000, .f32⟩
  | 8 => ⟨S16x6000, .i1⟩
  | 9 => ⟨S16x512x4, .f32⟩
  | 10 => ⟨S_, .f32⟩
  | 11 => ⟨S16x512, .f32⟩
  | 12 => ⟨S_, .f32⟩
  | 13 => ⟨S16x512, .f32⟩
  | 14 => ⟨S16x512, .i1⟩
  | 15 => ⟨S_, .i32⟩
  | 16 => ⟨S16x512, .i32⟩
  | 17 => ⟨S16x512, .i1⟩
  | 18 => ⟨S16x512, .i1⟩
  | 19 => ⟨S_, .i32⟩
  | 20 => ⟨S16x512, .i32⟩
  | 21 => ⟨S16x512, .i1⟩
  | 22 => ⟨S16x512, .i1⟩
  | 23 => ⟨S16x6000x1x4, .f32⟩
  | 24 => ⟨S16x1x512x4, .f32⟩
  | 25 => ⟨S16x6000x1x1, .f32⟩
  | 26 => ⟨S16x6000x1, .f32⟩
  | 27 => ⟨S16x1x512x1, .f32⟩
  | 28 => ⟨S16x1x512, .f32⟩
  | 29 => ⟨S16x6000x512, .f32⟩
  | 30 => ⟨S16x6000x512, .f32⟩
  | 31 => ⟨S16x6000x512, .f32⟩
  | 32 => ⟨S16x6000x1x1, .f32⟩
  | 33 => ⟨S16x6000x1, .f32⟩
  | 34 => ⟨S16x1x512x1, .f32⟩
  | 35 => ⟨S16x1x512, .f32⟩
  | 36 => ⟨S16x6000x512, .f32⟩
  | 37 => ⟨S16x6000x512, .f32⟩
  | 38 => ⟨S16x6000x512, .f32⟩
  | 39 => ⟨S16x6000x1x1, .f32⟩
  | 40 => ⟨S16x6000x1, .f32⟩
  | 41 => ⟨S16x1x512x1, .f32⟩
  | 42 => ⟨S16x1x512, .f32⟩
  | 43 => ⟨S16x6000x512, .f32⟩
  | 44 => ⟨S16x6000x512, .f32⟩
  | 45 => ⟨S16x6000x512, .f32⟩
  | 46 => ⟨S16x6000x1x1, .f32⟩
  | 47 => ⟨S16x6000x1, .f32⟩
  | 48 => ⟨S16x1x512x1, .f32⟩
  | 49 => ⟨S16x1x512, .f32⟩
  | 50 => ⟨S16x6000x512, .f32⟩
  | 51 => ⟨S16x6000x512, .f32⟩
  | 52 => ⟨S16x6000x512, .f32⟩
  | 53 => ⟨S16x6000x512, .f32⟩
  | 54 => ⟨S_, .f32⟩
  | 55 => ⟨S16x6000x512, .f32⟩
  | 56 => ⟨S16x6000x512, .f32⟩
  | 57 => ⟨S16x6000x512, .f32⟩
  | 58 => ⟨S_, .f32⟩
  | 59 => ⟨S16x6000x512, .f32⟩
  | 60 => ⟨S16x6000x512, .f32⟩
  | 61 => ⟨S16x6000x512, .f32⟩
  | 62 => ⟨S16x6000x1x1, .f32⟩
  | 63 => ⟨S16x6000x1, .f32⟩
  | 64 => ⟨S16x6000x1x1, .f32⟩
  | 65 => ⟨S16x6000x1, .f32⟩
  | 66 => ⟨S16x6000x1, .f32⟩
  | 67 => ⟨S16x6000x1x1, .f32⟩
  | 68 => ⟨S16x6000x1, .f32⟩
  | 69 => ⟨S16x6000x1x1, .f32⟩
  | 70 => ⟨S16x6000x1, .f32⟩
  | 71 => ⟨S16x6000x1, .f32⟩
  | 72 => ⟨S16x6000x1, .f32⟩
  | 73 => ⟨S16x1x512x1, .f32⟩
  | 74 => ⟨S16x1x512, .f32⟩
  | 75 => ⟨S16x1x512x1, .f32⟩
  | 76 => ⟨S16x1x512, .f32⟩
  | 77 => ⟨S16x1x512, .f32⟩
  | 78 => ⟨S16x1x512x1, .f32⟩
  | 79 => ⟨S16x1x512, .f32⟩
  | 80 => ⟨S16x1x512x1, .f32⟩
  | 81 => ⟨S16x1x512, .f32⟩
  | 82 => ⟨S16x1x512, .f32⟩
  | 83 => ⟨S16x1x512, .f32⟩
  | 84 => ⟨S16x6000x512, .f32⟩
  | 85 => ⟨S16x6000x512, .f32⟩
  | 86 => ⟨S16x6000x512, .f32⟩
  | 87 => ⟨S16x6000x512, .f32⟩
  | 88 => ⟨S_, .f32⟩
  | 89 => ⟨S16x6000x512, .f32⟩
  | 90 => ⟨S16x6000x512, .f32⟩
  | 91 => ⟨S16x6000x512, .f32⟩
  | 92 => ⟨S16x1x512, .i1⟩
  | 93 => ⟨S_, .f32⟩
  | 94 => ⟨S_, .f32⟩
  | 95 => ⟨S16x6000x512, .i1⟩
  | 96 => ⟨S16x6000x512, .f32⟩
  | 97 => ⟨S16x6000x512, .f32⟩
  | 98 => ⟨S_, .f32⟩
  | 99 => ⟨S16x6000, .f32⟩
  | 100 => ⟨S16x1x512, .i1⟩
  | 101 => ⟨S_, .f32⟩
  | 102 => ⟨S_, .f32⟩
  | 103 => ⟨S16x6000x512, .i1⟩
  | 104 => ⟨S16x6000x512, .f32⟩
  | 105 => ⟨S16x6000x512, .f32⟩
  | 106 => ⟨S_, .f32⟩
  | 107 => ⟨S16x6000, .f32⟩
  | 108 => ⟨S_, .f32⟩
  | 109 => ⟨S_, .f32⟩
  | 110 => ⟨S16x6000, .f32⟩
  | 111 => ⟨S16x6000, .f32⟩
  | 112 => ⟨S_, .f32⟩
  | 113 => ⟨S_, .f32⟩
  | 114 => ⟨S16x6000, .f32⟩
  | 115 => ⟨S16x6000, .f32⟩
  | 116 => ⟨S_, .f32⟩
  | 117 => ⟨S16x6000, .f32⟩
  | 118 => ⟨S16x6000, .i1⟩
  | 119 => ⟨S16x6000, .i1⟩
  | 120 => ⟨S_, .f32⟩
  | 121 => ⟨S16x6000, .f32⟩
  | 122 => ⟨S16x6000, .i1⟩
  | 123 => ⟨S16x6000, .i1⟩
  | 124 => ⟨S_, .f32⟩
  | 125 => ⟨S16x6000, .f32⟩
  | 126 => ⟨S16x6000, .i1⟩
  | 127 => ⟨S16x6000, .i1⟩
  | _ => ⟨S16x6000x4, .f32⟩

abbrev hbmTy0_1 (i : Nat) : BufTy := match i % 128 with
  | 0 => ⟨S16x1x6000, .f32⟩
  | 1 => ⟨S16x1x6000, .f32⟩
  | 2 => ⟨S16x2x6000, .f32⟩
  | _ => ⟨S16x6000x4, .f32⟩

abbrev hbmTy (i : Nat) : BufTy := match i / 128 with
  | 0 => hbmTy0_0 i
  | 1 => hbmTy0_1 i
  | _ => ⟨S16x6000x4, .f32⟩

abbrev bufTy : (tb : Table) → Fin (tcTables nBuf tb) → BufTy
  | .hbm, ⟨i, _⟩ => hbmTy i
  | _, _ => ⟨S16x6000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_6 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_7 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_v81 : Ref sig .tc := ⟨.hbm, 97, rfl⟩
abbrev main_cst_8 : Ref sig .tc := ⟨.hbm, 98, rfl⟩
abbrev main_v82 : Ref sig .tc := ⟨.hbm, 99, rfl⟩
abbrev main_v83 : Ref sig .tc := ⟨.hbm, 100, rfl⟩
abbrev main_cst_9 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v84 : Ref sig .tc := ⟨.hbm, 105, rfl⟩
abbrev main_cst_10 : Ref sig .tc := ⟨.hbm, 106, rfl⟩
abbrev main_v85 : Ref sig .tc := ⟨.hbm, 107, rfl⟩
abbrev main_cst_11 : Ref sig .tc := ⟨.hbm, 108, rfl⟩
abbrev main_call2_v0 : Ref sig .tc := ⟨.hbm, 109, rfl⟩
abbrev main_call2_v1 : Ref sig .tc := ⟨.hbm, 110, rfl⟩
abbrev main_v86 : Ref sig .tc := ⟨.hbm, 111, rfl⟩
abbrev main_cst_12 : Ref sig .tc := ⟨.hbm, 112, rfl⟩
abbrev main_call3_v0 : Ref sig .tc := ⟨.hbm, 113, rfl⟩
abbrev main_call3_v1 : Ref sig .tc := ⟨.hbm, 114, rfl⟩
abbrev main_v87 : Ref sig .tc := ⟨.hbm, 115, rfl⟩
abbrev main_cst_13 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_14 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_15 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩

abbrev nD : Nat := 1
abbrev τ : Topo := Topo.v7x

variable {F : FTy → Type} [FloatOps F]

class Facts₀ : Prop where
  reducesTo_S16x6000x4_S16x6000_d2 : S16x6000x4.ReducesTo [2] S16x6000
  h_S_ : 0 < S_.numel
  bcast_S_S16x6000 : S_.BroadcastsInDim S16x6000 (![] : Fin 0 → Fin S16x6000.rank)
  reducesTo_S16x512x4_S16x512_d2 : S16x512x4.ReducesTo [2] S16x512
  bcast_S_S16x512 : S_.BroadcastsInDim S16x512 (![] : Fin 0 → Fin S16x512.rank)
  bcast_S16x6000x4_S16x6000x1x4_0_1_3 : S16x6000x4.BroadcastsInDim S16x6000x1x4 (![0, 1, 3] : Fin 3 → Fin S16x6000x1x4.rank)
  bcast_S16x512x4_S16x1x512x4_0_2_3 : S16x512x4.BroadcastsInDim S16x1x512x4 (![0, 2, 3] : Fin 3 → Fin S16x1x512x4.rank)
  slices_S16x6000x1x4_S16x6000x1x1_0_0_0_0 : S16x6000x1x4.Slices ![0, 0, 0, 0] S16x6000x1x1
  shapeCasts_S16x6000x1x1_S16x6000x1 : S16x6000x1x1.ShapeCasts S16x6000x1
  slices_S16x1x512x4_S16x1x512x1_0_0_0_0 : S16x1x512x4.Slices ![0, 0, 0, 0] S16x1x512x1
  shapeCasts_S16x1x512x1_S16x1x512 : S16x1x512x1.ShapeCasts S16x1x512
  bcast_S16x6000x1_S16x6000x512_0_1_2 : S16x6000x1.BroadcastsInDim S16x6000x512 (![0, 1, 2] : Fin 3 → Fin S16x6000x512.rank)
  bcast_S16x1x512_S16x6000x512_0_1_2 : S16x1x512.BroadcastsInDim S16x6000x512 (![0, 1, 2] : Fin 3 → Fin S16x6000x512.rank)
  slices_S16x6000x1x4_S16x6000x1x1_0_0_0_1 : S16x6000x1x4.Slices ![0, 0, 0, 1] S16x6000x1x1
  slices_S16x1x512x4_S16x1x512x1_0_0_0_1 : S16x1x512x4.Slices ![0, 0, 0, 1] S16x1x512x1
  slices_S16x6000x1x4_S16x6000x1x1_0_0_0_2 : S16x6000x1x4.Slices ![0, 0, 0, 2] S16x6000x1x1
  slices_S16x1x512x4_S16x1x512x1_0_0_0_2 : S16x1x512x4.Slices ![0, 0, 0, 2] S16x1x512x1
  slices_S16x6000x1x4_S16x6000x1x1_0_0_0_3 : S16x6000x1x4.Slices ![0, 0, 0, 3] S16x6000x1x1
  slices_S16x1x512x4_S16x1x512x1_0_0_0_3 : S16x1x512x4.Slices ![0, 0, 0, 3] S16x1x512x1
  bcast_S_S16x6000x512 : S_.BroadcastsInDim S16x6000x512 (![] : Fin 0 → Fin S16x6000x512.rank)
  bcast_S16x512_S16x1x512_0_2 : S16x512.BroadcastsInDim S16x1x512 (![0, 2] : Fin 2 → Fin S16x1x512.rank)
  reducesTo_S16x6000x512_S16x6000_d2 : S16x6000x512.ReducesTo [2] S16x6000
  bcast_S16x6000_S16x1x6000_0_2 : S16x6000.BroadcastsInDim S16x1x6000 (![0, 2] : Fin 2 → Fin S16x1x6000.rank)
  concatenates_S16x1x6000_S16x1x6000_S16x2x6000_d1 : Shape.Concatenates [S16x1x6000, S16x1x6000] S16x2x6000 1

variable [Facts₀]

class Facts : Prop extends Facts₀ where

variable [Facts]
-- ==== Proof.RefResults.lean ====
/-
  The reference's three results are its stages. The run of the reference gives each buffer as the fold of the 128
  operations' results over the launch contents; read in one pass that fold is too deep, so it is read window by
  window: after the first 59 operations the validity mask of the boxes, the crowd and non-crowd flags, the two
  broadcast box arrays and the overlap are their stages; the next 30 operations turn those into the overlap ratio and
  leave the mask and the flags alone; the last 39 turn the ratio, the mask and the flags into the three results.
-/
import proofs.«173920_j8624294330475_1_alg».proof.Proof.RefRun
import proofs.«173920_j8624294330475_1_alg».proof.Proof.RefRead
import Idealize.ShloMosaic.Lib.StableHlo.Run

noncomputable section

namespace Cert.ReferenceIdeal.Results

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The contents after two lists of operations in a row are the contents after the second list, from the contents
    after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The first window, from the launch contents -/

section WindowA
variable (m : (ℓ : Loc nD τ sig) → Buf (Elt F) ℓ) (c : Dev nD)

set_option maxHeartbeats 4000000 in
theorem a_v3 : after (ValueP.opsA (F := F)) (launchContents m c) (Proc.devRef .tc main_v3) = val_main_v3 (F := F) (m ((c.tc : Thread nD τ).loc main_arg0)) := by
  after_results_simp <;> rfl

set_option maxHeartbeats 4000000 in
theorem a_v10 : after (ValueP.opsA (F := F)) (launchContents m c) (Proc.devRef .tc main_v10) = val_main_v10 (F := F) (m ((c.tc : Thread nD τ).loc main_arg1)) (m ((c.tc : Thread nD τ).loc main_arg2)) := by
  after_results_simp <;> rfl

set_option maxHeartbeats 4000000 in
theorem a_v13 : after (ValueP.opsA (F := F)) (launchContents m c) (Proc.devRef .tc main_v13) = val_main_v13 (F := F) (m ((c.tc : Thread nD τ).loc main_arg1)) (m ((c.tc : Thread nD τ).loc main_arg2)) := by
  after_results_simp <;> rfl

set_option maxHeartbeats 4000000 in
theorem a_v14 : after (ValueP.opsA (F := F)) (launchContents m c) (Proc.devRef .tc main_v14) = val_main_v14 (F := F) (m ((c.tc : Thread nD τ).loc main_arg0)) := by
  after_results_simp <;> rfl

set_option maxHeartbeats 4000000 in
theorem a_v15 : after (ValueP.opsA (F := F)) (launchContents m c) (Proc.devRef .tc main_v15) = val_main_v15 (F := F) (m ((c.tc : Thread nD τ).loc main_arg2)) := by
  after_results_simp <;> rfl

set_option maxHeartbeats 4000000 in
theorem a_v50 : after (ValueP.opsA (F := F)) (launchContents m c) (Proc.devRef .tc main_v50) = val_main_v50 (F := F) (m ((c.tc : Thread nD τ).loc main_arg0)) (m ((c.tc : Thread nD τ).loc main_arg2)) := by
  after_results_simp <;> rfl

end WindowA

/-! ## The second window, from any contents -/

section WindowB
variable (W : Valuation τ sig (Elt F))

set_option maxHeartbeats 4000000 in
/-- The overlap ratio, from contents that hold the two broadcast box arrays and the overlap. -/
theorem b_v79 (R : (⟨S16x6000x4, .f32⟩ : BufTy).Contents (Elt F)) (B : (⟨S16x512x4, .f32⟩ : BufTy).Contents (Elt F))
    (h14 : W (Proc.devRef .tc main_v14) = val_main_v14 (F := F) R) (h15 : W (Proc.devRef .tc main_v15) = val_main_v15 (F := F) B)
    (h50 : W (Proc.devRef .tc main_v50) = val_main_v50 (F := F) R B) :
    after (ValueP.opsB (F := F)) W (Proc.devRef .tc main_v79) = val_main_v79 (F := F) R B := by
  after_results_simp
  simp only [h14, h15, h50]
  rfl

set_option maxHeartbeats 4000000 in
theorem b_v3 : after (ValueP.opsB (F := F)) W (Proc.devRef .tc main_v3) = W (Proc.devRef .tc main_v3) := by
  after_results_simp <;> rfl
set_option maxHeartbeats 4000000 in
theorem b_v10 : after (ValueP.opsB (F := F)) W (Proc.devRef .tc main_v10) = W (Proc.devRef .tc main_v10) := by
  after_results_simp <;> rfl
set_option maxHeartbeats 4000000 in
theorem b_v13 : after (ValueP.opsB (F := F)) W (Proc.devRef .tc main_v13) = W (Proc.devRef .tc main_v13) := by
  after_results_simp <;> rfl

end WindowB

/-! ## The third window, from any contents -/

section WindowC
variable (W : Valuation τ sig (Elt F)) (R : (⟨S16x6000x4, .f32⟩ : BufTy).Contents (Elt F)) (I : (⟨S16x512, .i32⟩ : BufTy).Contents (Elt F)) (B : (⟨S16x512x4, .f32⟩ : BufTy).Contents (Elt F))
  (h79 : W (Proc.devRef .tc main_v79) = val_main_v79 (F := F) R B) (h3 : W (Proc.devRef .tc main_v3) = val_main_v3 (F := F) R)
  (h10 : W (Proc.devRef .tc main_v10) = val_main_v10 (F := F) I B) (h13 : W (Proc.devRef .tc main_v13) = val_main_v13 (F := F) I B)
include h79 h3 h10 h13

set_option maxHeartbeats 4000000 in
/-- The stacked result: the last operation joins the two broadcast best ratios, and each of them is read on its own
    (a rewrite does not enter the components of the list of shaped arrays that the join takes). -/
theorem c_v99 : after (ValueP.opsC (F := F)) W (Proc.devRef .tc main_v99) = val_main_v99 (F := F) R I B := by
  simp only [after_cons, after_nil, binary_result']
  unfold val_main_v99
  refine congrArg₂ (fun a b => concatenate S16x2x6000 1 [⟨S16x1x6000, a⟩, ⟨S16x1x6000, b⟩] concatenates_S16x1x6000_S16x1x6000_S16x2x6000_d1) ?_ ?_
  · after_results_simp
    simp only [h79, h3, h10, h13]
    rfl
  · after_results_simp
    simp only [h79, h3, h10, h13]
    rfl
set_option maxHeartbeats 4000000 in
theorem c_v90 : after (ValueP.opsC (F := F)) W (Proc.devRef .tc main_v90) = val_main_v90 (F := F) R I B := by
  after_results_simp
  simp only [h79, h3, h10, h13]
  rfl
set_option maxHeartbeats 4000000 in
theorem c_v96 : after (ValueP.opsC (F := F)) W (Proc.devRef .tc main_v96) = val_main_v96 (F := F) R I B := by
  after_results_simp
  simp only [h79, h3, h10, h13]
  rfl

end WindowC

/-! ## The whole list -/

section Whole
variable (m : (ℓ : Loc nD τ sig) → Buf (Elt F) ℓ) (c : Dev nD)

theorem ratio_after : after (ValueP.opsB (F := F)) (after (ValueP.opsA (F := F)) (launchContents m c)) (Proc.devRef .tc main_v79)
    = val_main_v79 (F := F) (m ((c.tc : Thread nD τ).loc main_arg0)) (m ((c.tc : Thread nD τ).loc main_arg2)) :=
  b_v79 _ _ _ (a_v14 m c) (a_v15 m c) (a_v50 m c)

/-- The first result, the two best overlap ratios stacked, is the stage `val_main_v99` of the launch contents. -/
theorem res_v99 : after (ValueP.ops (F := F)) (launchContents m c) (Proc.devRef .tc main_v99) = val_main_v99 (F := F) (m ((c.tc : Thread nD τ).loc main_arg0)) (m ((c.tc : Thread nD τ).loc main_arg1)) (m ((c.tc : Thread nD τ).loc main_arg2)) := by
  rw [ValueP.ops_split, after_append, after_append]
  exact c_v99 _ _ _ _ (ratio_after m c) ((b_v3 _).trans (a_v3 m c)) ((b_v10 _).trans (a_v10 m c)) ((b_v13 _).trans (a_v13 m c))
/-- The second result, the flag of the boxes with a large best ratio, is the stage `val_main_v90`. -/
theorem res_v90 : after (ValueP.ops (F := F)) (launchContents m c) (Proc.devRef .tc main_v90) = val_main_v90 (F := F) (m ((c.tc : Thread nD τ).loc main_arg0)) (m ((c.tc : Thread nD τ).loc main_arg1)) (m ((c.tc : Thread nD τ).loc main_arg2)) := by
  rw [ValueP.ops_split, after_append, after_append]
  exact c_v90 _ _ _ _ (ratio_after m c) ((b_v3 _).trans (a_v3 m c)) ((b_v10 _).trans (a_v10 m c)) ((b_v13 _).trans (a_v13 m c))
/-- The third result, the flag of the boxes with small best ratios, is the stage `val_main_v96`. -/
theorem res_v96 : after (ValueP.ops (F := F)) (launchContents m c) (Proc.devRef .tc main_v96) = val_main_v96 (F := F) (m ((c.tc : Thread nD τ).loc main_arg0)) (m ((c.tc : Thread nD τ).loc main_arg1)) (m ((c.tc : Thread nD τ).loc main_arg2)) := by
  rw [ValueP.ops_split, after_append, after_append]
  exact c_v96 _ _ _ _ (ratio_after m c) ((b_v3 _).trans (a_v3 m c)) ((b_v10 _).trans (a_v10 m c)) ((b_v13 _).trans (a_v13 m c))

end Whole

end Cert.ReferenceIdeal.Results

end
-- ==== Proof.Spec.lean ====
/-
  The mathematics both programs compute, over coordinate functions and free of any array layout.

  A box is four extended reals in the order (y1, x1, y2, x2).  For a query box `a` and a family of 512 boxes `bx g`:
  the overlap of `a` with `bx g` is the product of the two side overlaps, each clipped below at zero; the overlap
  ratio divides it by (area a + area (bx g) - overlap + ε); a query box is live when the sum of the absolute
  values of its coordinates is positive; the best ratio over a subfamily is the maximum, starting from -∞, of the
  ratios of the members of the subfamily and zero for the others, and is reported as zero for a box that is not live.

  A subfamily can be given two ways: by a 0/1 weight multiplying each ratio, or by a one-bit flag selecting
  between the ratio and zero.  On the extended reals `x * 1 = x` and `x * 0 = 0` for EVERY `x` (also for the
  infinities a ratio can take when its denominator vanishes), so the two agree with no finiteness assumption:
  `weightedBest_flags`.  The two classification flags compare the best ratios with one half and one thousandth;
  a flag written out as the number 0 or 1 and compared with one half is the flag again: `gt_half_flag`.
-/
import Idealize.ShloMosaic.PureOps.Ideal
import Idealize.ShloMosaic.PureOps.Ideal.Laws
import Idealize.ShloMosaic.Lib.ValueIdx

noncomputable section

namespace Cert.BoxOverlap

open Idealize.ShloMosaic Idealize.ShloMosaic.ValueIdx

/-- The five float words the two programs spell, as the extended reals they denote. Only zero and one half are ever
    evaluated; the others are the same word on both sides. -/
abbrev zeroW : EReal := Ideal.ofBits .f32 0x00000000#32
abbrev epsW : EReal := Ideal.ofBits .f32 0x322BCC77#32
abbrev halfW : EReal := Ideal.ofBits .f32 0x3F000000#32
abbrev milliW : EReal := Ideal.ofBits .f32 0x3A83126F#32
abbrev bottomW : EReal := Ideal.ofBits .f32 0xFF800000#32

theorem zeroW_eq : zeroW = 0 := Ideal.ofBits_zero_f32

theorem halfW_eq : halfW = ((1 / 2 : ℝ) : EReal) := by
  simp [Ideal.ofBits, Ideal.ieee, -EReal.coe_mul]; norm_num

/-- The area of the intersection of the boxes `a` and `b`: each side's overlap clipped below at zero. -/
def overlap (a b : Fin 4 → EReal) : EReal :=
  max (min (a 2) (b 2) - max (a 0) (b 0)) zeroW * max (min (a 3) (b 3) - max (a 1) (b 1)) zeroW

/-- The overlap ratio: the intersection's area over the union's area plus ε. -/
def ratio (a b : Fin 4 → EReal) : EReal :=
  Ideal.div (overlap a b) ((a 2 - a 0) * (a 3 - a 1) + (b 2 - b 0) * (b 3 - b 1) - overlap a b + epsW)

/-- A box is live when its coordinates are not all zero: the sum of their absolute values is positive. -/
def live (a : Fin 4 → EReal) : BitVec 1 :=
  Ideal.cmp .ogt (∑ k : Fin 4, max (a k) (-(a k))) zeroW

/-- The best ratio of `a` against the boxes `bx g`, each ratio multiplied by the weight `w g`. -/
def weightedBest (a : Fin 4 → EReal) (bx : Fin 512 → Fin 4 → EReal) (w : Fin 512 → EReal) : EReal :=
  Scalar.select (live a) ((Finset.univ : Finset (Fin 512)).fold max bottomW (fun g => ratio a (bx g) * w g)) zeroW

/-- The best ratio of `a` against the boxes `bx g` whose flag `sel g` is set, the others counted as zero. -/
def pickedBest (a : Fin 4 → EReal) (bx : Fin 512 → Fin 4 → EReal) (sel : Fin 512 → BitVec 1) : EReal :=
  Scalar.select (live a) ((Finset.univ : Finset (Fin 512)).fold max bottomW
    (fun g => Scalar.select (sel g) (ratio a (bx g)) zeroW)) zeroW

/-- Multiplying by a one-bit flag read as the number 0 or 1 is selecting between the value and zero, for every
    extended real. -/
theorem mul_flag (x : EReal) (p : BitVec 1) : x * ((p.toNat : ℝ) : EReal) = Scalar.select p x zeroW := by
  by_cases h : p = 1#1
  · subst h
    rw [select_one]
    simp
  · have h0 : p = 0#1 := eq_zero_of_ne_one h
    subst h0
    rw [select_zero, zeroW_eq]
    simp

/-- The weighted best with 0/1 weights is the picked best. -/
theorem weightedBest_flags (a : Fin 4 → EReal) (bx : Fin 512 → Fin 4 → EReal) (sel : Fin 512 → BitVec 1) :
    weightedBest a bx (fun g => (((sel g).toNat : ℝ) : EReal)) = pickedBest a bx sel := by
  unfold weightedBest pickedBest
  congr 1
  exact Finset.fold_congr fun g _ => mul_flag _ _

/-- The flag of a box whose best ratio reaches one half. -/
def posFlag (lv : BitVec 1) (x : EReal) : BitVec 1 :=
  IntOp.andi lv (Ideal.cmp .oge x halfW)

/-- The flag of a box whose best ratio stays below one half and whose second best ratio stays below one thousandth. -/
def negFlag (lv : BitVec 1) (x y : EReal) : BitVec 1 :=
  IntOp.andi (IntOp.andi lv (Ideal.cmp .olt x halfW)) (Ideal.cmp .olt y milliW)

/-- A flag written out as the number 0 or 1 and compared with one half is the flag. -/
theorem gt_half_flag (p : BitVec 1) :
    Ideal.cmp .ogt ((((p.setWidth 32).toInt : ℤ) : ℝ) : EReal) halfW = p := by
  rw [halfW_eq]
  by_cases h : p = 1#1
  · subst h
    have e : ((1#1 : BitVec 1).setWidth 32).toInt = 1 := by decide
    rw [e]
    have : ((1 / 2 : ℝ) : EReal) < (((1 : ℤ) : ℝ) : EReal) := by
      rw [EReal.coe_lt_coe_iff]; norm_num
    show BitVec.ofBool (decide (((1 / 2 : ℝ) : EReal) < (((1 : ℤ) : ℝ) : EReal))) = 1#1
    rw [decide_eq_true this]; rfl
  · have h0 : p = 0#1 := eq_zero_of_ne_one h
    subst h0
    have e : ((0#1 : BitVec 1).setWidth 32).toInt = 0 := by decide
    rw [e]
    have : ¬ ((1 / 2 : ℝ) : EReal) < (((0 : ℤ) : ℝ) : EReal) := by
      rw [EReal.coe_lt_coe_iff]; norm_num
    show BitVec.ofBool (decide (((1 / 2 : ℝ) : EReal) < (((0 : ℤ) : ℝ) : EReal))) = 0#1
    rw [decide_eq_false this]; rfl

end Cert.BoxOverlap

end
-- ==== Proof.LibLayout.lean ====
/-
  LAYOUT OPERATIONS READ AT AN INDEX GIVEN BY COORDINATES, at the shapes a hash-grid embedding lookup meets.
  Each lemma reads one layout operation (a broadcast along named axes, a concatenation of two unit pieces, a gather
  of table rows, a reshape, a transpose) applied at an index written by its coordinates as the operand at the index
  the operation's definition names, with the coordinate arithmetic already discharged. The side-condition proof of
  every operation is an explicit argument of arbitrary proof term, so a lemma applies whatever proof a term carries.
-/
import Idealize.ShloMosaic.Lib.ValueIdx
import Idealize.ShloMosaic.Lib.Pipeline.Value
import Idealize.ShloMosaic.Lib.ValueLayout
import Idealize.ShloMosaic.PureOps

noncomputable section

namespace Cert.LibLayout

open Idealize.ShloMosaic Idealize.ShloMosaic.ValueIdx

variable {α : Type}

/-! ## A broadcast along named axes, read at an index -/

/-- A scalar broadcast to any shape reads the scalar at every index. -/
theorem bcast_scalar (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector `[n]` viewed as a column `[n, 1]` (its axis sent to axis 0) reads, at `(a, z)`, the vector at `a`. -/
theorem bcast_n_n1 {n : Nat} (h : (⟨1, ![n]⟩ : Shape).BroadcastsInDim ⟨2, ![n, 1]⟩ ![0])
    (u : (⟨1, ![n]⟩ : Shape).Idx → α) (a : Fin n) (z : Fin 1) :
    broadcastInDim ⟨2, ![n, 1]⟩ ![0] h u (ix2 a z) = u (ix1 a) :=
  broadcastInDim_apply _ h u _ _ (fun ax => by
    match ax with
    | ⟨0, _⟩ =>
      show a.val = if n = 1 then 0 else a.val
      split
      · have := a.isLt; omega
      · rfl)

/-- A vector `[n]` viewed as a row `[1, n]` (its axis sent to axis 1) reads, at `(z, a)`, the vector at `a`. -/
theorem bcast_n_1n {n : Nat} (h : (⟨1, ![n]⟩ : Shape).BroadcastsInDim ⟨2, ![1, n]⟩ ![1])
    (u : (⟨1, ![n]⟩ : Shape).Idx → α) (z : Fin 1) (a : Fin n) :
    broadcastInDim ⟨2, ![1, n]⟩ ![1] h u (ix2 z a) = u (ix1 a) :=
  broadcastInDim_apply _ h u _ _ (fun ax => by
    match ax with
    | ⟨0, _⟩ =>
      show a.val = if n = 1 then 0 else a.val
      split
      · have := a.isLt; omega
      · rfl)

/-- A column `[n, 1]` repeated along its unit axis to `[n, m]` reads, at `(a, b)`, the column at `(a, 0)`. -/
theorem bcast_n1_nm {n m : Nat} (h : (⟨2, ![n, 1]⟩ : Shape).BroadcastsInDim ⟨2, ![n, m]⟩ ![0, 1])
    (w : (⟨2, ![n, 1]⟩ : Shape).Idx → α) (a : Fin n) (b : Fin m) :
    broadcastInDim ⟨2, ![n, m]⟩ ![0, 1] h w (ix2 a b) = w (ix2 a (0 : Fin 1)) :=
  broadcastInDim_apply _ h w _ _ (fun ax => by
    match ax with
    | ⟨0, _⟩ =>
      show a.val = if n = 1 then 0 else a.val
      split
      · have := a.isLt; omega
      · rfl
    | ⟨1, _⟩ => rfl)

/-- A row `[1, n]` repeated along its unit axis to `[m, n]` reads, at `(b, a)`, the row at `(0, a)`. -/
theorem bcast_1n_mn {n m : Nat} (h : (⟨2, ![1, n]⟩ : Shape).BroadcastsInDim ⟨2, ![m, n]⟩ ![0, 1])
    (w : (⟨2, ![1, n]⟩ : Shape).Idx → α) (b : Fin m) (a : Fin n) :
    broadcastInDim ⟨2, ![m, n]⟩ ![0, 1] h w (ix2 b a) = w (ix2 (0 : Fin 1) a) :=
  broadcastInDim_apply _ h w _ _ (fun ax => by
    match ax with
    | ⟨0, _⟩ => rfl
    | ⟨1, _⟩ =>
      show a.val = if n = 1 then 0 else a.val
      split
      · have := a.isLt; omega
      · rfl)

/-- A matrix `[A, B]` given a trailing unit axis, `[A, B, 1]`, reads, at `(a, b, z)`, the matrix at `(a, b)`. -/
theorem bcast_ab_ab1 {A B : Nat} (h : (⟨2, ![A, B]⟩ : Shape).BroadcastsInDim ⟨3, ![A, B, 1]⟩ ![0, 1])
    (w : (⟨2, ![A, B]⟩ : Shape).Idx → α) (a : Fin A) (b : Fin B) (z : Fin 1) :
    broadcastInDim ⟨3, ![A, B, 1]⟩ ![0, 1] h w (ix3 a b z) = w (ix2 a b) :=
  broadcastInDim_apply _ h w _ _ (fun ax => by
    match ax with
    | ⟨0, _⟩ =>
      show a.val = if A = 1 then 0 else a.val
      split
      · have := a.isLt; omega
      · rfl
    | ⟨1, _⟩ =>
      show b.val = if B = 1 then 0 else b.val
      split
      · have := b.isLt; omega
      · rfl)

/-- An array `[A, B, 1]` repeated along its trailing unit axis to `[A, B, m]` reads, at `(a, b, f)`, the array at
    `(a, b, 0)`. -/
theorem bcast_ab1_abm {A B m : Nat} (h : (⟨3, ![A, B, 1]⟩ : Shape).BroadcastsInDim ⟨3, ![A, B, m]⟩ ![0, 1, 2])
    (w : (⟨3, ![A, B, 1]⟩ : Shape).Idx → α) (a : Fin A) (b : Fin B) (f : Fin m) :
    broadcastInDim ⟨3, ![A, B, m]⟩ ![0, 1, 2] h w (ix3 a b f) = w (ix3 a b (0 : Fin 1)) :=
  broadcastInDim_apply _ h w _ _ (fun ax => by
    match ax with
    | ⟨0, _⟩ =>
      show a.val = if A = 1 then 0 else a.val
      split
      · have := a.isLt; omega
      · rfl
    | ⟨1, _⟩ =>
      show b.val = if B = 1 then 0 else b.val
      split
      · have := b.isLt; omega
      · rfl
    | ⟨2, _⟩ => rfl)

/-! ## Two unit pieces concatenated along the last axis -/

/-- Two `[A, B, 1]` pieces concatenated along the last axis read, at `(a, b, 0)`, the first piece at `(a, b, 0)`. -/
theorem concat_ab1_left {A B : Nat} (p q : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B) :
    concatenate ⟨3, ![A, B, 2]⟩ 2 [⟨⟨3, ![A, B, 1]⟩, p⟩, ⟨⟨3, ![A, B, 1]⟩, q⟩] h (ix3 a b (0 : Fin 2))
      = p (ix3 a b (0 : Fin 1)) :=
  concatenate_pair_apply_left 2 p q h _ rfl _ (fun ax => by
    match ax with
    | ⟨0, _⟩ => rfl
    | ⟨1, _⟩ => rfl
    | ⟨2, _⟩ => rfl)

/-- Two `[A, B, 1]` pieces concatenated along the last axis read, at `(a, b, 1)`, the second piece at `(a, b, 0)`. -/
theorem concat_ab1_right {A B : Nat} (p q : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B) :
    concatenate ⟨3, ![A, B, 2]⟩ 2 [⟨⟨3, ![A, B, 1]⟩, p⟩, ⟨⟨3, ![A, B, 1]⟩, q⟩] h (ix3 a b (1 : Fin 2))
      = q (ix3 a b (0 : Fin 1)) :=
  concatenate_pair_apply_right 2 p q h _ rfl rfl _ (fun ax hax => by
    match ax, hax with
    | ⟨0, _⟩, _ => rfl
    | ⟨1, _⟩, _ => rfl
    | ⟨2, _⟩, hax => exact absurd rfl hax) rfl

/-- Two `[A, B, 1]` pieces concatenated along the last axis read, at `(a, b, c)`, the first piece when `c = 0` and
    the second otherwise, each at `(a, b, 0)`. -/
theorem concat_ab1_apply {A B : Nat} (p q : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B)
    (c : Fin 2) :
    concatenate ⟨3, ![A, B, 2]⟩ 2 [⟨⟨3, ![A, B, 1]⟩, p⟩, ⟨⟨3, ![A, B, 1]⟩, q⟩] h (ix3 a b c)
      = if c.val = 0 then p (ix3 a b (0 : Fin 1)) else q (ix3 a b (0 : Fin 1)) := by
  match c with
  | ⟨0, _⟩ => exact concat_ab1_left p q h a b
  | ⟨1, _⟩ => exact concat_ab1_right p q h a b

/-! ## The gather of table rows: operand `[16, 524288, 4]` at start indices `[A, B, 2]`

What `table[level, slot]` of a table `[16, 524288, 4]` at two integer arrays of one shape `[A, B]`, stacked on a last
axis, lowers to: the start index's two components name the first two operand axes (both collapsed), the third operand
axis is read whole as the result's last axis. Result element `(a, b, f)` is the table at the two components
`idx[a, b, 0]`, `idx[a, b, 1]`, each read signed and clamped into its axis, and at `f`. -/

/-- Those dimension numbers for start indices `[A, B, 2]` and result `[A, B, 4]`; their conditions `wf` are decided
    on a program's literal shapes. -/
abbrev rowDims (A B : Nat)
    (wf : GatherDims.WF ⟨3, ![16, 524288, 4]⟩ ⟨3, ![A, B, 2]⟩ ⟨3, ![A, B, 4]⟩ [2] [0, 1] [] [0, 1] [] 2 ![1, 1, 4]) :
    GatherDims ⟨3, ![16, 524288, 4]⟩ ⟨3, ![A, B, 2]⟩ ⟨3, ![A, B, 4]⟩ where
  offsetDims := [2]
  collapsedSliceDims := [0, 1]
  operandBatchingDims := []
  startIndicesBatchingDims := []
  startIndexMap := [0, 1]
  indexVectorDim := 2
  sliceSizes := ![1, 1, 4]
  wf := wf

/-- The table index a pair of start-index words and a feature name: each word read signed and clamped into its axis.
    It mentions neither extent of the index arrays. -/
def rowAt {w : Nat} (i0 i1 : BitVec w) (f : Fin 4) : (⟨3, ![16, 524288, 4]⟩ : Shape).Idx :=
  ix3 (⟨min i0.toInt.toNat 15, by omega⟩ : Fin 16) (⟨min i1.toInt.toNat 524287, by omega⟩ : Fin 524288) f

/-- THE GATHER READ AT `(a, b, f)`: the table at the clamped start-index components `idx[a, b, 0]`, `idx[a, b, 1]` and
    at `f`. -/
theorem gather_row_apply {A B w : Nat}
    (wf : GatherDims.WF ⟨3, ![16, 524288, 4]⟩ ⟨3, ![A, B, 2]⟩ ⟨3, ![A, B, 4]⟩ [2] [0, 1] [] [0, 1] [] 2 ![1, 1, 4])
    (x : (⟨3, ![16, 524288, 4]⟩ : Shape).Idx → α) (idx : IVec ⟨3, ![A, B, 2]⟩ w) (a : Fin A) (b : Fin B) (f : Fin 4) :
    Host.gather (rowDims A B wf) x idx (ix3 a b f)
      = x (ix3 (⟨min (idx (ix3 a b (0 : Fin 2))).toInt.toNat 15, by omega⟩ : Fin 16)
          (⟨min (idx (ix3 a b (1 : Fin 2))).toInt.toNat 524287, by omega⟩ : Fin 524288) f) := by
  have m0 : (0 : Fin 3) ∈ ([0, 1] : List (Fin 3)) := by decide
  have m1 : (1 : Fin 3) ∈ ([0, 1] : List (Fin 3)) := by decide
  have n2 : (2 : Fin 3) ∉ ([0, 1] : List (Fin 3)) := by decide
  -- the start-indices index of component `c` of the start index of `(a, b, f)` is `(a, b, c)`
  have hsi : ∀ (c : Fin 2) (hc : c.val < (rowDims A B wf).startIndexMap.length),
      (rowDims A B wf).siIdx (ix3 a b f) ⟨c.val, hc⟩ = ix3 a b c := by
    intro c hc
    funext d; refine Fin.ext ?_
    match d with
    | ⟨0, _⟩ => rfl
    | ⟨1, _⟩ => rfl
    | ⟨2, _⟩ => rfl
  -- axis 0: the clamped first component, no offset
  have e0 : (rowDims A B wf).start (ix3 a b f) idx 0 + (rowDims A B wf).offCoord (ix3 a b f) 0
      = min (idx (ix3 a b (0 : Fin 2))).toInt.toNat 15 := by
    rw [GatherDims.offCoord_eq_zero _ _ _ (fun hm => ((GatherDims.mem_sKept _ _).mp hm).1 m0), Nat.add_zero]
    unfold GatherDims.start
    rw [dif_pos (show (0 : Fin 3) ∈ (rowDims A B wf).startIndexMap from m0)]
    exact congrArg (fun k => min (idx k).toInt.toNat 15) (hsi 0 Nat.zero_lt_two)
  -- axis 1: the clamped second component, no offset
  have e1 : (rowDims A B wf).start (ix3 a b f) idx 1 + (rowDims A B wf).offCoord (ix3 a b f) 1
      = min (idx (ix3 a b (1 : Fin 2))).toInt.toNat 524287 := by
    rw [GatherDims.offCoord_eq_zero _ _ _ (fun hm => ((GatherDims.mem_sKept _ _).mp hm).1 m1), Nat.add_zero]
    unfold GatherDims.start
    rw [dif_pos (show (1 : Fin 3) ∈ (rowDims A B wf).startIndexMap from m1)]
    exact congrArg (fun k => min (idx k).toInt.toNat 524287) (hsi 1 Nat.one_lt_two)
  -- axis 2: no start, the offset is the result's last coordinate
  have e2 : (rowDims A B wf).start (ix3 a b f) idx 2 + (rowDims A B wf).offCoord (ix3 a b f) 2 = f.val := by
    unfold GatherDims.start
    rw [dif_neg (show (2 : Fin 3) ∉ (rowDims A B wf).startIndexMap from n2), Nat.zero_add]
    unfold GatherDims.offCoord
    rw [dif_pos ((GatherDims.mem_sKept _ _).mpr ⟨n2, List.not_mem_nil⟩)]
    rfl
  unfold Host.gather
  congr 1
  funext ax
  refine Fin.ext ?_
  show (rowDims A B wf).start (ix3 a b f) idx ax + (rowDims A B wf).batchCoord (ix3 a b f) ax
    + (rowDims A B wf).offCoord (ix3 a b f) ax = _
  rw [GatherDims.batchCoord_eq_zero _ _ _ List.not_mem_nil, Nat.add_zero]
  match ax with
  | ⟨0, _⟩ => exact e0
  | ⟨1, _⟩ => exact e1
  | ⟨2, _⟩ => exact e2

/-- The gather read at `(a, b, f)` through `rowAt`: one function of the two start-index words and `f`. -/
theorem gather_row_apply_rowAt {A B w : Nat}
    (wf : GatherDims.WF ⟨3, ![16, 524288, 4]⟩ ⟨3, ![A, B, 2]⟩ ⟨3, ![A, B, 4]⟩ [2] [0, 1] [] [0, 1] [] 2 ![1, 1, 4])
    (x : (⟨3, ![16, 524288, 4]⟩ : Shape).Idx → α) (idx : IVec ⟨3, ![A, B, 2]⟩ w) (a : Fin A) (b : Fin B) (f : Fin 4) :
    Host.gather (rowDims A B wf) x idx (ix3 a b f)
      = x (rowAt (idx (ix3 a b (0 : Fin 2))) (idx (ix3 a b (1 : Fin 2))) f) :=
  gather_row_apply wf x idx a b f

/-! ## Reshapes and a transpose, read at an index -/

/-- `[2097152, 16, 4]` flattened to `[2097152, 64]` reads, at `(b, j)`, the operand at `(b, j / 4, j % 4)`. -/
theorem reshape_Bx16x4_Bx64 (x : (⟨3, ![2097152, 16, 4]⟩ : Shape).Idx → α)
    (h : (⟨3, ![2097152, 16, 4]⟩ : Shape).ShapeCasts ⟨2, ![2097152, 64]⟩) (b : Fin 2097152) (j : Fin 64) :
    shapeCast ⟨2, ![2097152, 64]⟩ x h (ix2 b j)
      = x (ix3 b (⟨j.val / 4, by have := j.isLt; omega⟩ : Fin 16) (⟨j.val % 4, by omega⟩ : Fin 4)) :=
  shapeCast_apply x h _ _ (by
    rw [Shape.rowMajor_val_three, Shape.rowMajor_val_two]
    show (b.val * 16 + j.val / 4) * 4 + j.val % 4 = b.val * 64 + j.val
    omega)

/-- `[2097152, 64]` regrouped as `[1048576, 128]` (two rows per row) reads, at `(n, q)`, the operand at
    `(2 n + q / 64, q % 64)`. -/
theorem reshape_Bx64_Hx128 (x : (⟨2, ![2097152, 64]⟩ : Shape).Idx → α)
    (h : (⟨2, ![2097152, 64]⟩ : Shape).ShapeCasts ⟨2, ![1048576, 128]⟩) (n : Fin 1048576) (q : Fin 128) :
    shapeCast ⟨2, ![1048576, 128]⟩ x h (ix2 n q)
      = x (ix2 (⟨2 * n.val + q.val / 64, by have := n.isLt; have := q.isLt; omega⟩ : Fin 2097152)
          (⟨q.val % 64, by omega⟩ : Fin 64)) :=
  shapeCast_apply x h _ _ (by
    rw [Shape.rowMajor_val_two, Shape.rowMajor_val_two]
    show (2 * n.val + q.val / 64) * 64 + q.val % 64 = n.val * 128 + q.val
    omega)

/-- `[2097152, 16]` regrouped as `[1048576, 32]` (two rows per row) reads, at `(n, k)`, the operand at
    `(2 n + k / 16, k % 16)`. -/
theorem reshape_Bx16_Hx32 (x : (⟨2, ![2097152, 16]⟩ : Shape).Idx → α)
    (h : (⟨2, ![2097152, 16]⟩ : Shape).ShapeCasts ⟨2, ![1048576, 32]⟩) (n : Fin 1048576) (k : Fin 32) :
    shapeCast ⟨2, ![1048576, 32]⟩ x h (ix2 n k)
      = x (ix2 (⟨2 * n.val + k.val / 16, by have := n.isLt; have := k.isLt; omega⟩ : Fin 2097152)
          (⟨k.val % 16, by omega⟩ : Fin 16)) :=
  shapeCast_apply x h _ _ (by
    rw [Shape.rowMajor_val_two, Shape.rowMajor_val_two]
    show (2 * n.val + k.val / 16) * 16 + k.val % 16 = n.val * 32 + k.val
    omega)

/-- `[1048576, 128]` split back into `[2097152, 64]` (each row in two halves) reads, at `(b, j)`, the operand at
    `(b / 2, (b % 2) * 64 + j)`. -/
theorem reshape_Hx128_Bx64 (x : (⟨2, ![1048576, 128]⟩ : Shape).Idx → α)
    (h : (⟨2, ![1048576, 128]⟩ : Shape).ShapeCasts ⟨2, ![2097152, 64]⟩) (b : Fin 2097152) (j : Fin 64) :
    shapeCast ⟨2, ![2097152, 64]⟩ x h (ix2 b j)
      = x (ix2 (⟨b.val / 2, by have := b.isLt; omega⟩ : Fin 1048576)
          (⟨(b.val % 2) * 64 + j.val, by have := j.isLt; omega⟩ : Fin 128)) :=
  shapeCast_apply x h _ _ (by
    rw [Shape.rowMajor_val_two, Shape.rowMajor_val_two]
    show b.val / 2 * 128 + ((b.val % 2) * 64 + j.val) = b.val * 64 + j.val
    omega)

/-- `[16, 2097152, 4]` with its first two axes swapped reads, at `(b, l, f)`, the operand at `(l, b, f)`. -/
theorem transpose_102_apply {A B C : Nat} (x : (⟨3, ![A, B, C]⟩ : Shape).Idx → α)
    (h : (⟨3, ![A, B, C]⟩ : Shape).Transposes [1, 0, 2] ⟨3, ![B, A, C]⟩) (b : Fin B) (l : Fin A) (f : Fin C) :
    transpose ⟨3, ![B, A, C]⟩ [1, 0, 2] x h (ix3 b l f) = x (ix3 l b f) :=
  transpose_apply _ x h _ _ fun c => match c with | ⟨0, _⟩ => rfl | ⟨1, _⟩ => rfl | ⟨2, _⟩ => rfl

/-! ## Composites both programs meet -/

/-- The gather of table rows at a PAIR of index arrays `[A, B]`, each given a trailing unit axis and the two stacked on
    it: result element `(a, b, f)` is the table at the clamped words `i0[a, b]`, `i1[a, b]` and at `f`. -/
theorem gather_pair_apply {A B w : Nat}
    (wf : GatherDims.WF ⟨3, ![16, 524288, 4]⟩ ⟨3, ![A, B, 2]⟩ ⟨3, ![A, B, 4]⟩ [2] [0, 1] [] [0, 1] [] 2 ![1, 1, 4])
    (h0 h1 : (⟨2, ![A, B]⟩ : Shape).BroadcastsInDim ⟨3, ![A, B, 1]⟩ ![0, 1])
    (hc : Shape.Concatenates [(⟨3, ![A, B, 1]⟩ : Shape), ⟨3, ![A, B, 1]⟩] ⟨3, ![A, B, 2]⟩ 2)
    (x : (⟨3, ![16, 524288, 4]⟩ : Shape).Idx → α) (i0 i1 : IVec ⟨2, ![A, B]⟩ w) (a : Fin A) (b : Fin B) (f : Fin 4) :
    Host.gather (rowDims A B wf) x
        (concatenate ⟨3, ![A, B, 2]⟩ 2 [⟨⟨3, ![A, B, 1]⟩, broadcastInDim ⟨3, ![A, B, 1]⟩ ![0, 1] h0 i0⟩,
          ⟨⟨3, ![A, B, 1]⟩, broadcastInDim ⟨3, ![A, B, 1]⟩ ![0, 1] h1 i1⟩] hc) (ix3 a b f)
      = x (rowAt (i0 (ix2 a b)) (i1 (ix2 a b)) f) := by
  rw [gather_row_apply_rowAt, concat_ab1_left, concat_ab1_right, bcast_ab_ab1, bcast_ab_ab1]

/-- `[A, B, 4]` with its first two axes swapped and then its last two axes merged, `[B, 4 A]`, at the literal extents
    `A = 16`, `B = 2097152`: reads, at `(b, j)`, the operand at `(j / 4, b, j % 4)`. -/
theorem reshape_transpose_apply (x : (⟨3, ![16, 2097152, 4]⟩ : Shape).Idx → α)
    (ht : (⟨3, ![16, 2097152, 4]⟩ : Shape).Transposes [1, 0, 2] ⟨3, ![2097152, 16, 4]⟩)
    (hs : (⟨3, ![2097152, 16, 4]⟩ : Shape).ShapeCasts ⟨2, ![2097152, 64]⟩) (b : Fin 2097152) (j : Fin 64) :
    shapeCast ⟨2, ![2097152, 64]⟩ (transpose ⟨3, ![2097152, 16, 4]⟩ [1, 0, 2] x ht) hs (ix2 b j)
      = x (ix3 (⟨j.val / 4, by have := j.isLt; omega⟩ : Fin 16) b (⟨j.val % 4, by omega⟩ : Fin 4)) := by
  rw [reshape_Bx16x4_Bx64, transpose_102_apply]

end Cert.LibLayout

end
-- ==== Proof.LibColumnMatmul.lean ====
/-
  Two reads at an index given by coordinates.

  * A column [a, 1] broadcast along its unit axis to [a, b]: entry (p, c) of the result is entry (p, 0) of the column.
  * A matrix product into a zero accumulator whose dimension numbers contract ONE axis of extent n: entry j of the
    result is Σ_{k < n} lhs(L k) · rhs(R k), where L k and R k are the operand indices the dimension numbers assign to
    output index j and contraction coordinate k (the caller names them and shows that they are).
-/
import Idealize.ShloMosaic.Lib.ValueLayout
import Idealize.ShloMosaic.Lib.ValueIdx
import Idealize.ShloMosaic.PureOps.Ideal.Laws

noncomputable section

namespace Cert.LibColumnMatmul

open Idealize.ShloMosaic Idealize.ShloMosaic.ValueIdx

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product into the zero accumulator, one contracted axis of extent `n`: the sum over that axis of the operands'
    entries at the indices `L k`, `R k` the dimension numbers give. -/
theorem matmul_zero_single {sl sr so : Shape} {φ₁ φ₂ : FTy} (D : DotDims sl sr so) (prec : Option ContractPrecision) (n : ℕ)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hL : ∀ k : Fin n, D.lhsIdx j ((contrEquiv1 D n hr hs).symm k) = L k)
    (hR : ∀ k : Fin n, D.rhsIdx j ((contrEquiv1 D n hr hs).symm k) = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  exact Finset.sum_congr rfl fun k _ => by rw [hL k, hR k]

end Cert.LibColumnMatmul

end
-- ==== Proof.BlockValue.lean ====
/-
  What the kernel's body leaves in each of its four output blocks, read at a lane `j` of the block, as the
  specification's functions of the four input blocks.

  At one grid point the body sees a [1, 4, 768] block of box coordinates (coordinate on the middle axis, box on the
  lanes), the batch's [1, 512, 4] ground-truth boxes, and two [1, 512, 1] columns of 0/1 weights (crowd, then non-crowd).
  For lane `j` the first output is the best overlap ratio weighted by the non-crowd column, the second by the crowd
  column, and the last two are the two classification flags written out as the numbers 0 and 1.
-/
import proofs.«173920_j8624294330475_1_alg».proof.Proof.Gen.KernelIdeal.Frame
import proofs.«173920_j8624294330475_1_alg».proof.Proof.Spec
import proofs.«173920_j8624294330475_1_alg».proof.Proof.LibLayout
import proofs.«173920_j8624294330475_1_alg».proof.Proof.LibColumnMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Cert.BoxOverlap
open Idealize.ShloMosaic Idealize.ShloMosaic.ValueIdx

/-- The four coordinates of the box on lane `j` of a coordinate block. -/
abbrev coords (x0 : Vec Ideal S1x4x768 .f32) (j : Fin 768) : Fin 4 → EReal := fun k => x0 (ix3 (0 : Fin 1) k j)
/-- The 512 ground-truth boxes of a ground-truth block. -/
abbrev boxes (x1 : Vec Ideal S1x512x4 .f32) : Fin 512 → Fin 4 → EReal := fun g k => x1 (ix3 (0 : Fin 1) g k)
/-- The 512 weights of a weight column. -/
abbrev weights (x : Vec Ideal S1x512x1 .f32) : Fin 512 → EReal := fun g => x (ix3 (0 : Fin 1) g (0 : Fin 1))

theorem hz3 : (![0, 0, 0] : Fin 3 → Nat) = fun _ => 0 := funext fun a => by fin_cases a <;> rfl

/-! ## The rows of the coordinate block and the columns of the ground-truth block -/

/-- Row 0 of the coordinate block, as the body slices it, read at lane `j`. -/
theorem row0_apply (x0 : Vec Ideal S1x4x768 .f32) (j : Fin 768) :
    k0_pay7 (F := Ideal) x0 (ix2 (0 : Fin 1) j) = x0 (ix3 (0 : Fin 1) (0 : Fin 4) j) := by
  unfold k0_pay7 k0_pay3
  exact (slice2_axis0_apply 0 _ _ (0 : Fin 1) j (0 : Fin 4) rfl).trans (shapeCast_1ab_ab_apply _ _ _ _)

/-- Row 1. -/
theorem row1_apply (x0 : Vec Ideal S1x4x768 .f32) (j : Fin 768) :
    k0_pay8 (F := Ideal) x0 (ix2 (0 : Fin 1) j) = x0 (ix3 (0 : Fin 1) (1 : Fin 4) j) := by
  unfold k0_pay8 k0_pay3
  exact (slice2_axis0_apply 1 _ _ (0 : Fin 1) j (1 : Fin 4) rfl).trans (shapeCast_1ab_ab_apply _ _ _ _)

/-- Row 2. -/
theorem row2_apply (x0 : Vec Ideal S1x4x768 .f32) (j : Fin 768) :
    k0_pay9 (F := Ideal) x0 (ix2 (0 : Fin 1) j) = x0 (ix3 (0 : Fin 1) (2 : Fin 4) j) := by
  unfold k0_pay9 k0_pay3
  exact (slice2_axis0_apply 2 _ _ (0 : Fin 1) j (2 : Fin 4) rfl).trans (shapeCast_1ab_ab_apply _ _ _ _)

/-- Row 3. -/
theorem row3_apply (x0 : Vec Ideal S1x4x768 .f32) (j : Fin 768) :
    k0_pay10 (F := Ideal) x0 (ix2 (0 : Fin 1) j) = x0 (ix3 (0 : Fin 1) (3 : Fin 4) j) := by
  unfold k0_pay10 k0_pay3
  exact (slice2_axis0_apply 3 _ _ (0 : Fin 1) j (3 : Fin 4) rfl).trans (shapeCast_1ab_ab_apply _ _ _ _)

/-- Column 0 of the ground-truth block, as the body slices it, read at box `g`. -/
theorem col0_apply (x1 : Vec Ideal S1x512x4 .f32) (g : Fin 512) :
    k0_pay11 (F := Ideal) x1 (ix2 g (0 : Fin 1)) = x1 (ix3 (0 : Fin 1) g (0 : Fin 4)) := by
  unfold k0_pay11 k0_pay4
  exact (slice2_axis1_apply 0 _ _ g (0 : Fin 1) (0 : Fin 4) rfl).trans (shapeCast_1ab_ab_apply _ _ _ _)

/-- Column 1. -/
theorem col1_apply (x1 : Vec Ideal S1x512x4 .f32) (g : Fin 512) :
    k0_pay12 (F := Ideal) x1 (ix2 g (0 : Fin 1)) = x1 (ix3 (0 : Fin 1) g (1 : Fin 4)) := by
  unfold k0_pay12 k0_pay4
  exact (slice2_axis1_apply 1 _ _ g (0 : Fin 1) (1 : Fin 4) rfl).trans (shapeCast_1ab_ab_apply _ _ _ _)

/-- Column 2. -/
theorem col2_apply (x1 : Vec Ideal S1x512x4 .f32) (g : Fin 512) :
    k0_pay13 (F := Ideal) x1 (ix2 g (0 : Fin 1)) = x1 (ix3 (0 : Fin 1) g (2 : Fin 4)) := by
  unfold k0_pay13 k0_pay4
  exact (slice2_axis1_apply 2 _ _ g (0 : Fin 1) (2 : Fin 4) rfl).trans (shapeCast_1ab_ab_apply _ _ _ _)

/-- Column 3. -/
theorem col3_apply (x1 : Vec Ideal S1x512x4 .f32) (g : Fin 512) :
    k0_pay14 (F := Ideal) x1 (ix2 g (0 : Fin 1)) = x1 (ix3 (0 : Fin 1) g (3 : Fin 4)) := by
  unfold k0_pay14 k0_pay4
  exact (slice2_axis1_apply 3 _ _ g (0 : Fin 1) (3 : Fin 4) rfl).trans (shapeCast_1ab_ab_apply _ _ _ _)

/-- A row of the coordinate block repeated down the 512 boxes. -/
theorem rowB_apply (v : FVec Ideal S1x768 .f32) (h : S1x768.Broadcasts S512x768) (g : Fin 512) (j : Fin 768) :
    broadcastTo S512x768 v h (ix2 g j) = v (ix2 (0 : Fin 1) j) :=
  broadcastTo_1b_ab_apply v h g j

/-- A column of the ground-truth block repeated across the 768 lanes. -/
theorem colB_apply (v : FVec Ideal S512x1 .f32) (h : S512x1.Broadcasts S512x768) (g : Fin 512) (j : Fin 768) :
    broadcastTo S512x768 v h (ix2 g j) = v (ix2 g (0 : Fin 1)) :=
  Cert.LibColumnMatmul.broadcastTo_a1_ab_apply v h g j

/-! ## The overlap, the two areas, the ratio -/

/-- The body's overlap of the box on lane `j` with ground-truth box `g`. -/
theorem overlap_apply (x0 : Vec Ideal S1x4x768 .f32) (x1 : Vec Ideal S1x512x4 .f32) (g : Fin 512) (j : Fin 768) :
    k0_pay15 (F := Ideal) x0 x1 (ix2 g j) = overlap (coords x0 j) (boxes x1 g) := by
  unfold k0_pay15 overlap
  show max (min (broadcastTo S512x768 (k0_pay9 x0) _ (ix2 g j)) (broadcastTo S512x768 (k0_pay13 x1) _ (ix2 g j))
        - max (broadcastTo S512x768 (k0_pay7 x0) _ (ix2 g j)) (broadcastTo S512x768 (k0_pay11 x1) _ (ix2 g j))) zeroW
      * max (min (broadcastTo S512x768 (k0_pay10 x0) _ (ix2 g j)) (broadcastTo S512x768 (k0_pay14 x1) _ (ix2 g j))
        - max (broadcastTo S512x768 (k0_pay8 x0) _ (ix2 g j)) (broadcastTo S512x768 (k0_pay12 x1) _ (ix2 g j))) zeroW = _
  rw [rowB_apply (k0_pay9 x0), rowB_apply (k0_pay7 x0), rowB_apply (k0_pay10 x0), rowB_apply (k0_pay8 x0),
    colB_apply (k0_pay13 x1), colB_apply (k0_pay11 x1), colB_apply (k0_pay14 x1), colB_apply (k0_pay12 x1),
    row0_apply, row1_apply, row2_apply, row3_apply, col0_apply, col1_apply, col2_apply, col3_apply]

/-- The body's sum of the two boxes' areas. -/
theorem areas_apply (x0 : Vec Ideal S1x4x768 .f32) (x1 : Vec Ideal S1x512x4 .f32) (g : Fin 512) (j : Fin 768) :
    k0_pay16 (F := Ideal) x0 x1 (ix2 g j)
      = (coords x0 j 2 - coords x0 j 0) * (coords x0 j 3 - coords x0 j 1)
        + (boxes x1 g 2 - boxes x1 g 0) * (boxes x1 g 3 - boxes x1 g 1) := by
  unfold k0_pay16
  show broadcastTo S512x768 (mulf (subf (k0_pay9 x0) (k0_pay7 x0)) (subf (k0_pay10 x0) (k0_pay8 x0))) _ (ix2 g j)
      + broadcastTo S512x768 (mulf (subf (k0_pay13 x1) (k0_pay11 x1)) (subf (k0_pay14 x1) (k0_pay12 x1))) _ (ix2 g j) = _
  rw [rowB_apply, colB_apply]
  show (k0_pay9 x0 (ix2 (0 : Fin 1) j) - k0_pay7 x0 (ix2 (0 : Fin 1) j)) * (k0_pay10 x0 (ix2 (0 : Fin 1) j) - k0_pay8 x0 (ix2 (0 : Fin 1) j))
      + (k0_pay13 x1 (ix2 g (0 : Fin 1)) - k0_pay11 x1 (ix2 g (0 : Fin 1))) * (k0_pay14 x1 (ix2 g (0 : Fin 1)) - k0_pay12 x1 (ix2 g (0 : Fin 1))) = _
  rw [row0_apply, row1_apply, row2_apply, row3_apply, col0_apply, col1_apply, col2_apply, col3_apply]

/-- The body's overlap ratio. -/
theorem ratio_apply (x0 : Vec Ideal S1x4x768 .f32) (x1 : Vec Ideal S1x512x4 .f32) (g : Fin 512) (j : Fin 768) :
    k0_pay17 (F := Ideal) (k0_pay15 x0 x1) (k0_pay16 x0 x1) (ix2 g j) = ratio (coords x0 j) (boxes x1 g) := by
  unfold k0_pay17 ratio
  show Ideal.div (k0_pay15 x0 x1 (ix2 g j)) ((k0_pay16 x0 x1 (ix2 g j) - k0_pay15 x0 x1 (ix2 g j)) + epsW) = _
  rw [overlap_apply, areas_apply]

/-! ## The casts that drop the blocks' leading unit axis -/

theorem cast3_apply (x0 : Vec Ideal S1x4x768 .f32) (k : Fin 4) (j : Fin 768) :
    k0_pay3 (F := Ideal) x0 (ix2 k j) = x0 (ix3 (0 : Fin 1) k j) := by
  unfold k0_pay3
  exact shapeCast_1ab_ab_apply _ _ k j

theorem cast5_apply (w : Vec Ideal S1x512x1 .f32) (g : Fin 512) :
    k0_pay5 (F := Ideal) w (ix2 g (0 : Fin 1)) = w (ix3 (0 : Fin 1) g (0 : Fin 1)) := by
  unfold k0_pay5
  exact shapeCast_1ab_ab_apply _ _ g 0

theorem cast6_apply (w : Vec Ideal S1x512x1 .f32) (g : Fin 512) :
    k0_pay6 (F := Ideal) w (ix2 g (0 : Fin 1)) = w (ix3 (0 : Fin 1) g (0 : Fin 1)) := by
  unfold k0_pay6
  exact shapeCast_1ab_ab_apply _ _ g 0

/-! ## The index a reduction over the leading axis inserts -/

theorem lift_rows (h : S4x768.Reduces [0] S768) (j : Fin 768) (k : Fin 4) : h.lift (ix1 j) k = ix2 k j := by
  funext c; apply Fin.ext
  match c with
  | ⟨0, _⟩ => rfl
  | ⟨1, _⟩ => rfl

theorem lift_boxes (h : S512x768.Reduces [0] S768) (j : Fin 768) (g : Fin 512) : h.lift (ix1 j) g = ix2 g j := by
  funext c; apply Fin.ext
  match c with
  | ⟨0, _⟩ => rfl
  | ⟨1, _⟩ => rfl

/-! ## Liveness and the best weighted ratio -/

/-- The body's liveness flag of the box on lane `j`: the sum of the absolute values of its four coordinates is positive. -/
theorem live_apply (x0 : Vec Ideal S1x4x768 .f32) (j : Fin 768) :
    k0_pay18 (F := Ideal) (k0_pay3 x0) (ix2 (0 : Fin 1) j) = live (coords x0 j) := by
  unfold k0_pay18 live
  show Ideal.cmp .ogt (shapeCast S1x768 (multiReduction .add [0] S768 (absf (k0_pay3 x0)) 0x00000000#32 reduces_S4x768_S768 _ _)
      shapeCasts_S768_S1x768 (ix2 (0 : Fin 1) j)) zeroW = _
  refine congrArg (fun s => Ideal.cmp .ogt s zeroW) ((shapeCast_a_1a_apply _ _ 0 j).trans ?_)
  refine (Ideal.multiReduction_add_single _ 0x00000000#32 reduces_S4x768_S768 _ _ (ix1 j)).trans ?_
  show ∑ k : Fin 4, absf (k0_pay3 x0) (reduces_S4x768_S768.lift (ix1 j) k) = _
  refine Finset.sum_congr rfl fun k _ => ?_
  rw [lift_rows]
  show max (k0_pay3 x0 (ix2 k j)) (-(k0_pay3 x0 (ix2 k j))) = _
  rw [cast3_apply]

/-- The body's best ratio on lane `j`, the ratios weighted by a column `v`, zero for a box that is not live: the
    maximum over the 512 rows of the weighted ratios, from the accumulator -∞. -/
theorem pay19_apply (x0 : Vec Ideal S1x4x768 .f32) (x1 : Vec Ideal S1x512x4 .f32) (v : FVec Ideal S512x1 .f32) (j : Fin 768) :
    k0_pay19 (F := Ideal) (k0_pay3 x0) v (k0_pay15 x0 x1) (k0_pay16 x0 x1) (ix2 (0 : Fin 1) j)
      = weightedBest (coords x0 j) (boxes x1) (fun g => v (ix2 g (0 : Fin 1))) := by
  unfold k0_pay19 weightedBest
  show Scalar.select (k0_pay18 (k0_pay3 x0) (ix2 (0 : Fin 1) j))
      (shapeCast S1x768 (multiReduction .maximumf [0] S768
        (mulf (k0_pay17 (k0_pay15 x0 x1) (k0_pay16 x0 x1)) (broadcastTo S512x768 v broadcasts_S512x1_S512x768))
        0xFF800000#32 reduces_S512x768_S768 _ _) shapeCasts_S768_S1x768 (ix2 (0 : Fin 1) j)) zeroW = _
  rw [live_apply]
  refine congrArg (fun s => Scalar.select (live (coords x0 j)) s zeroW) ((shapeCast_a_1a_apply _ _ 0 j).trans ?_)
  refine (Ideal.multiReduction_maximumf_single (s := S512x768) (t := S768) (a := 0) (φ := .f32)
    (mulf (k0_pay17 (k0_pay15 x0 x1) (k0_pay16 x0 x1)) (broadcastTo S512x768 v broadcasts_S512x1_S512x768))
    0xFF800000#32 reduces_S512x768_S768 (.inl rfl) rfl (ix1 j)).trans ?_
  show (Finset.univ : Finset (Fin 512)).fold max bottomW
      (fun g => mulf (k0_pay17 (k0_pay15 x0 x1) (k0_pay16 x0 x1)) (broadcastTo S512x768 v broadcasts_S512x1_S512x768)
        (reduces_S512x768_S768.lift (ix1 j) g)) = _
  refine Finset.fold_congr fun (g : Fin 512) _ => ?_
  refine (congrArg (mulf (k0_pay17 (k0_pay15 x0 x1) (k0_pay16 x0 x1)) (broadcastTo S512x768 v broadcasts_S512x1_S512x768))
    (lift_boxes reduces_S512x768_S768 j g)).trans ?_
  show k0_pay17 (k0_pay15 x0 x1) (k0_pay16 x0 x1) (ix2 g j) * broadcastTo S512x768 v broadcasts_S512x1_S512x768 (ix2 g j) = _
  rw [ratio_apply, colB_apply]

/-- The same through the body's second reduction. -/
theorem pay20_apply (x0 : Vec Ideal S1x4x768 .f32) (x1 : Vec Ideal S1x512x4 .f32) (v : FVec Ideal S512x1 .f32) (j : Fin 768) :
    k0_pay20 (F := Ideal) (k0_pay3 x0) v (k0_pay15 x0 x1) (k0_pay16 x0 x1) (ix2 (0 : Fin 1) j)
      = weightedBest (coords x0 j) (boxes x1) (fun g => v (ix2 g (0 : Fin 1))) := by
  unfold k0_pay20 weightedBest
  show Scalar.select (k0_pay18 (k0_pay3 x0) (ix2 (0 : Fin 1) j))
      (shapeCast S1x768 (multiReduction .maximumf [0] S768
        (mulf (k0_pay17 (k0_pay15 x0 x1) (k0_pay16 x0 x1)) (broadcastTo S512x768 v broadcasts_S512x1_S512x768))
        0xFF800000#32 reduces_S512x768_S768 _ _) shapeCasts_S768_S1x768 (ix2 (0 : Fin 1) j)) zeroW = _
  rw [live_apply]
  refine congrArg (fun s => Scalar.select (live (coords x0 j)) s zeroW) ((shapeCast_a_1a_apply _ _ 0 j).trans ?_)
  refine (Ideal.multiReduction_maximumf_single (s := S512x768) (t := S768) (a := 0) (φ := .f32)
    (mulf (k0_pay17 (k0_pay15 x0 x1) (k0_pay16 x0 x1)) (broadcastTo S512x768 v broadcasts_S512x1_S512x768))
    0xFF800000#32 reduces_S512x768_S768 (.inl rfl) rfl (ix1 j)).trans ?_
  show (Finset.univ : Finset (Fin 512)).fold max bottomW
      (fun g => mulf (k0_pay17 (k0_pay15 x0 x1) (k0_pay16 x0 x1)) (broadcastTo S512x768 v broadcasts_S512x1_S512x768)
        (reduces_S512x768_S768.lift (ix1 j) g)) = _
  refine Finset.fold_congr fun (g : Fin 512) _ => ?_
  refine (congrArg (mulf (k0_pay17 (k0_pay15 x0 x1) (k0_pay16 x0 x1)) (broadcastTo S512x768 v broadcasts_S512x1_S512x768))
    (lift_boxes reduces_S512x768_S768 j g)).trans ?_
  show k0_pay17 (k0_pay15 x0 x1) (k0_pay16 x0 x1) (ix2 g j) * broadcastTo S512x768 v broadcasts_S512x1_S512x768 (ix2 g j) = _
  rw [ratio_apply, colB_apply]

/-- The first best ratio, weighted by the column of a weight block. -/
theorem best6_apply (x0 : Vec Ideal S1x4x768 .f32) (x1 : Vec Ideal S1x512x4 .f32) (w : Vec Ideal S1x512x1 .f32) (j : Fin 768) :
    k0_pay19 (F := Ideal) (k0_pay3 x0) (k0_pay6 w) (k0_pay15 x0 x1) (k0_pay16 x0 x1) (ix2 (0 : Fin 1) j)
      = weightedBest (coords x0 j) (boxes x1) (weights w) :=
  (pay19_apply x0 x1 (k0_pay6 w) j).trans
    (congrArg (weightedBest (coords x0 j) (boxes x1)) (funext fun g => cast6_apply w g))

/-- The second best ratio, weighted by the column of a weight block. -/
theorem best5_apply (x0 : Vec Ideal S1x4x768 .f32) (x1 : Vec Ideal S1x512x4 .f32) (w : Vec Ideal S1x512x1 .f32) (j : Fin 768) :
    k0_pay20 (F := Ideal) (k0_pay3 x0) (k0_pay5 w) (k0_pay15 x0 x1) (k0_pay16 x0 x1) (ix2 (0 : Fin 1) j)
      = weightedBest (coords x0 j) (boxes x1) (weights w) :=
  (pay20_apply x0 x1 (k0_pay5 w) j).trans
    (congrArg (weightedBest (coords x0 j) (boxes x1)) (funext fun g => cast5_apply w g))

/-! ## The four output blocks -/

theorem out4_apply (x0 : Vec Ideal S1x4x768 .f32) (x1 : Vec Ideal S1x512x4 .f32) (x2 x3 : Vec Ideal S1x512x1 .f32) (j : Fin 768) :
    out0_4 (F := Ideal) x0 x1 x2 x3 (ix3 (0 : Fin 1) (0 : Fin 1) j) = weightedBest (coords x0 j) (boxes x1) (weights x3) := by
  unfold out0_4
  rw [View.canon_unit_zero hz3]
  simp only [View.ld_unit_zero (S := S1x4x768) hz3, View.ld_unit_zero (S := S1x512x4) hz3, View.ld_unit_zero (S := S1x512x1) hz3]
  unfold k0_pay22
  exact (shapeCast_ab_1ab_apply _ _ 0 0 j).trans (best6_apply x0 x1 x3 j)

theorem out5_apply (x0 : Vec Ideal S1x4x768 .f32) (x1 : Vec Ideal S1x512x4 .f32) (x2 x3 : Vec Ideal S1x512x1 .f32) (j : Fin 768) :
    out0_5 (F := Ideal) x0 x1 x2 x3 (ix3 (0 : Fin 1) (0 : Fin 1) j) = weightedBest (coords x0 j) (boxes x1) (weights x2) := by
  unfold out0_5
  rw [View.canon_unit_zero hz3]
  simp only [View.ld_unit_zero (S := S1x4x768) hz3, View.ld_unit_zero (S := S1x512x4) hz3, View.ld_unit_zero (S := S1x512x1) hz3]
  unfold k0_pay23
  exact (shapeCast_ab_1ab_apply _ _ 0 0 j).trans (best5_apply x0 x1 x2 j)

theorem out6_apply (x0 : Vec Ideal S1x4x768 .f32) (x1 : Vec Ideal S1x512x4 .f32) (x2 x3 : Vec Ideal S1x512x1 .f32) (j : Fin 768) :
    out0_6 (F := Ideal) x0 x1 x2 x3 (ix3 (0 : Fin 1) (0 : Fin 1) j)
      = (((((posFlag (live (coords x0 j)) (weightedBest (coords x0 j) (boxes x1) (weights x3))).setWidth 32).toInt : ℤ) : ℝ) : EReal) := by
  unfold out0_6
  rw [View.canon_unit_zero hz3]
  simp only [View.ld_unit_zero (S := S1x4x768) hz3, View.ld_unit_zero (S := S1x512x4) hz3, View.ld_unit_zero (S := S1x512x1) hz3]
  unfold k0_pay1
  refine (shapeCast_ab_1ab_apply _ _ 0 0 j).trans ?_
  unfold k0_pay24 posFlag
  show (((((IntOp.andi (k0_pay18 (k0_pay3 x0) (ix2 (0 : Fin 1) j))
      (Ideal.cmp .oge (k0_pay19 (k0_pay3 x0) (k0_pay6 x3) (k0_pay15 x0 x1) (k0_pay16 x0 x1) (ix2 (0 : Fin 1) j)) halfW)).setWidth 32).toInt : ℤ) : ℝ) : EReal) = _
  rw [live_apply, best6_apply]

theorem out7_apply (x0 : Vec Ideal S1x4x768 .f32) (x1 : Vec Ideal S1x512x4 .f32) (x2 x3 : Vec Ideal S1x512x1 .f32) (j : Fin 768) :
    out0_7 (F := Ideal) x0 x1 x2 x3 (ix3 (0 : Fin 1) (0 : Fin 1) j)
      = (((((negFlag (live (coords x0 j)) (weightedBest (coords x0 j) (boxes x1) (weights x3))
              (weightedBest (coords x0 j) (boxes x1) (weights x2))).setWidth 32).toInt : ℤ) : ℝ) : EReal) := by
  unfold out0_7
  rw [View.canon_unit_zero hz3]
  simp only [View.ld_unit_zero (S := S1x4x768) hz3, View.ld_unit_zero (S := S1x512x4) hz3, View.ld_unit_zero (S := S1x512x1) hz3]
  unfold k0_pay2
  refine (shapeCast_ab_1ab_apply _ _ 0 0 j).trans ?_
  unfold k0_pay21 negFlag
  show (((((IntOp.andi (IntOp.andi (k0_pay18 (k0_pay3 x0) (ix2 (0 : Fin 1) j))
        (Ideal.cmp .olt (k0_pay19 (k0_pay3 x0) (k0_pay6 x3) (k0_pay15 x0 x1) (k0_pay16 x0 x1) (ix2 (0 : Fin 1) j)) halfW))
      (Ideal.cmp .olt (k0_pay20 (k0_pay3 x0) (k0_pay5 x2) (k0_pay15 x0 x1) (k0_pay16 x0 x1) (ix2 (0 : Fin 1) j)) milliW)).setWidth 32).toInt : ℤ) : ℝ) : EReal) = _
  rw [live_apply, best6_apply, best5_apply]

end Cert.KernelIdeal.BlockValue

end
-- ==== Proof.KernelArrays.lean ====
/-
  From blocks to arrays. Each of the kernel's four output arrays [16, 1, 6144] is written block by block, the block of
  grid point (b, i) being lanes 768 i … 768 i + 767 of row b, and the blocks tile the array. What a point writes is a
  function of the blocks it reads: lanes 768 i … of the four coordinate rows of batch b in the transposed box array,
  all of batch b's ground-truth boxes, and batch b's two weight columns. Reading the block lemma through the printed
  index maps therefore gives each output array as ONE function of the four arrays the region reads, index by index.
-/
import proofs.«173920_j8624294330475_1_alg».proof.Proof.Gen.KernelIdeal.Frame
import proofs.«173920_j8624294330475_1_alg».proof.Proof.BlockValue
import proofs.«173920_j8624294330475_1_alg».proof.Proof.Spec
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.BlockValue Cert.BoxOverlap
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The four coordinates of box `n` of batch `b` in the transposed box array (coordinate on the middle axis). -/
abbrev colOf (P : FVec Ideal S16x4x6144 .f32) (b : Fin 16) (n : Fin 6144) : Fin 4 → EReal := fun k => P (ix3 b k n)
/-- Batch `b`'s 512 ground-truth boxes. -/
abbrev gtOf (B : FVec Ideal S16x512x4 .f32) (b : Fin 16) : Fin 512 → Fin 4 → EReal := fun g k => B (ix3 b g k)
/-- Batch `b`'s 512 weights of a weight column array. -/
abbrev wOf (W : FVec Ideal S16x512x1 .f32) (b : Fin 16) : Fin 512 → EReal := fun g => W (ix3 b g (0 : Fin 1))

/-- The best weighted overlap ratio of every box, as an array. -/
def bestArr (P : FVec Ideal S16x4x6144 .f32) (B : FVec Ideal S16x512x4 .f32) (W : FVec Ideal S16x512x1 .f32) :
    FVec Ideal S16x1x6144 .f32 := fun i =>
  weightedBest (colOf P ⟨(i 0).val, (i 0).isLt⟩ ⟨(i 2).val, (i 2).isLt⟩) (gtOf B ⟨(i 0).val, (i 0).isLt⟩) (wOf W ⟨(i 0).val, (i 0).isLt⟩)

/-- The flag of the boxes whose best non-crowd ratio reaches one half, written out as the number 0 or 1, as an array. -/
def posArr (P : FVec Ideal S16x4x6144 .f32) (B : FVec Ideal S16x512x4 .f32) (Wn : FVec Ideal S16x512x1 .f32) :
    FVec Ideal S16x1x6144 .f32 := fun i =>
  (((((posFlag (live (colOf P ⟨(i 0).val, (i 0).isLt⟩ ⟨(i 2).val, (i 2).isLt⟩))
      (weightedBest (colOf P ⟨(i 0).val, (i 0).isLt⟩ ⟨(i 2).val, (i 2).isLt⟩) (gtOf B ⟨(i 0).val, (i 0).isLt⟩) (wOf Wn ⟨(i 0).val, (i 0).isLt⟩))).setWidth 32).toInt : ℤ) : ℝ) : EReal)

/-- The flag of the boxes whose best non-crowd ratio stays below one half and whose best crowd ratio stays below one
    thousandth, written out as the number 0 or 1, as an array. -/
def negArr (P : FVec Ideal S16x4x6144 .f32) (B : FVec Ideal S16x512x4 .f32) (Wc Wn : FVec Ideal S16x512x1 .f32) :
    FVec Ideal S16x1x6144 .f32 := fun i =>
  (((((negFlag (live (colOf P ⟨(i 0).val, (i 0).isLt⟩ ⟨(i 2).val, (i 2).isLt⟩))
      (weightedBest (colOf P ⟨(i 0).val, (i 0).isLt⟩ ⟨(i 2).val, (i 2).isLt⟩) (gtOf B ⟨(i 0).val, (i 0).isLt⟩) (wOf Wn ⟨(i 0).val, (i 0).isLt⟩))
      (weightedBest (colOf P ⟨(i 0).val, (i 0).isLt⟩ ⟨(i 2).val, (i 2).isLt⟩) (gtOf B ⟨(i 0).val, (i 0).isLt⟩) (wOf Wc ⟨(i 0).val, (i 0).isLt⟩))).setWidth 32).toInt : ℤ) : ℝ) : EReal)

/-- The printed index maps, decided over the 128 grid points: the coordinate rows move with the output block, the
    ground-truth boxes and the weights follow its batch only, and the output's block indices stay in range. -/
theorem idx_facts : ∀ t : Fin cfg0.N,
    win0_0.index t (0 : Fin 3) = win0_4.index t (0 : Fin 3) ∧ win0_0.index t (1 : Fin 3) = 0 ∧ win0_0.index t (2 : Fin 3) = win0_4.index t (2 : Fin 3)
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (1 : Fin 3) = 0 ∧ win0_4.index t (0 : Fin 3) ≤ 15 ∧ win0_4.index t (2 : Fin 3) ≤ 7 :=
  (by decide +kernel : ∀ t : Fin grid0.N, _)

/-- An index of a [1, 1, 768] block is its lane. -/
theorem exists_lane (j : S1x1x768.Idx) : ∃ l : Fin 768, j = ix3 (0 : Fin 1) (0 : Fin 1) l := by
  refine ⟨⟨(j 2).val, (j 2).isLt⟩, ?_⟩
  funext a; apply Fin.ext
  match a with
  | ⟨0, _⟩ => have h : (j 0).val < 1 := (j 0).isLt; show (j 0).val = 0; omega
  | ⟨1, _⟩ => have h : (j 1).val < 1 := (j 1).isLt; show (j 1).val = 0; omega
  | ⟨2, _⟩ => rfl

/-- `bestArr` at an index whose batch is `b` and whose lane is `n`. -/
theorem bestArr_apply (P : FVec Ideal S16x4x6144 .f32) (B : FVec Ideal S16x512x4 .f32) (W : FVec Ideal S16x512x1 .f32)
    (b : Fin 16) (n : Fin 6144) (i : S16x1x6144.Idx) (h0 : (i 0).val = b.val) (h2 : (i 2).val = n.val) :
    bestArr P B W i = weightedBest (colOf P b n) (gtOf B b) (wOf W b) := by
  have hb : (⟨(i 0).val, (i 0).isLt⟩ : Fin 16) = b := Fin.ext h0
  have hn : (⟨(i 2).val, (i 2).isLt⟩ : Fin 6144) = n := Fin.ext h2
  unfold bestArr
  rw [hb, hn]

/-- `posArr` at an index whose batch is `b` and whose lane is `n`. -/
theorem posArr_apply (P : FVec Ideal S16x4x6144 .f32) (B : FVec Ideal S16x512x4 .f32) (Wn : FVec Ideal S16x512x1 .f32)
    (b : Fin 16) (n : Fin 6144) (i : S16x1x6144.Idx) (h0 : (i 0).val = b.val) (h2 : (i 2).val = n.val) :
    posArr P B Wn i = (((((posFlag (live (colOf P b n)) (weightedBest (colOf P b n) (gtOf B b) (wOf Wn b))).setWidth 32).toInt : ℤ) : ℝ) : EReal) := by
  have hb : (⟨(i 0).val, (i 0).isLt⟩ : Fin 16) = b := Fin.ext h0
  have hn : (⟨(i 2).val, (i 2).isLt⟩ : Fin 6144) = n := Fin.ext h2
  unfold posArr
  rw [hb, hn]

/-- `negArr` at an index whose batch is `b` and whose lane is `n`. -/
theorem negArr_apply (P : FVec Ideal S16x4x6144 .f32) (B : FVec Ideal S16x512x4 .f32) (Wc Wn : FVec Ideal S16x512x1 .f32)
    (b : Fin 16) (n : Fin 6144) (i : S16x1x6144.Idx) (h0 : (i 0).val = b.val) (h2 : (i 2).val = n.val) :
    negArr P B Wc Wn i = (((((negFlag (live (colOf P b n)) (weightedBest (colOf P b n) (gtOf B b) (wOf Wn b))
      (weightedBest (colOf P b n) (gtOf B b) (wOf Wc b))).setWidth 32).toInt : ℤ) : ℝ) : EReal) := by
  have hb : (⟨(i 0).val, (i 0).isLt⟩ : Fin 16) = b := Fin.ext h0
  have hn : (⟨(i 2).val, (i 2).isLt⟩ : Fin 6144) = n := Fin.ext h2
  unfold negArr
  rw [hb, hn]

/-- The other three output windows' index maps are the first one's. -/
theorem idx_facts_out : ∀ t : Fin cfg0.N,
    win0_5.index t (0 : Fin 3) = win0_4.index t (0 : Fin 3) ∧ win0_5.index t (1 : Fin 3) = win0_4.index t (1 : Fin 3) ∧ win0_5.index t (2 : Fin 3) = win0_4.index t (2 : Fin 3)
    ∧ win0_6.index t (0 : Fin 3) = win0_4.index t (0 : Fin 3) ∧ win0_6.index t (1 : Fin 3) = win0_4.index t (1 : Fin 3) ∧ win0_6.index t (2 : Fin 3) = win0_4.index t (2 : Fin 3)
    ∧ win0_7.index t (0 : Fin 3) = win0_4.index t (0 : Fin 3) ∧ win0_7.index t (1 : Fin 3) = win0_4.index t (1 : Fin 3) ∧ win0_7.index t (2 : Fin 3) = win0_4.index t (2 : Fin 3) :=
  (by decide +kernel : ∀ t : Fin grid0.N, _)

/-- Every block of an output array is some point's. -/
theorem idx_onto : ∀ (q0 : Fin 16) (q2 : Fin 8), ∃ t : Fin cfg0.N, win0_4.index t = ![q0.val, 0, q2.val] :=
  (by decide +kernel : ∀ (q0 : Fin 16) (q2 : Fin 8), ∃ t : Fin grid0.N, win0_4.index t = ![q0.val, 0, q2.val])

/-! ## The input blocks of point `t`, read through the printed index maps -/

/-- The coordinate block of point `t` at lane `l` is the box array's column at the block's batch and the block's lane. -/
theorem coords_blk (c : Dev nD) (t : Fin cfg0.N) (l : Fin 768) (b : Fin 16) (n : Fin 6144)
    (hb : b.val = win0_4.index t (0 : Fin 3)) (hn : n.val = win0_4.index t (2 : Fin 3) * 768 + l.val) :
    coords (iblk m c 0 t) l = colOf (V m c main_v1) b n := by
  obtain ⟨e00, e01, e02, e10, e11, e12, e20, e21, e22, e30, e31, e32, e41, b40, b42⟩ := idx_facts t
  funext k
  show V m c main_v1 (((cfg0.win 0).blk t).view.emb (ix3 (0 : Fin 1) k l)) = V m c main_v1 (ix3 b k n)
  refine congrArg (V m c main_v1) ?_
  funext a; apply Fin.ext
  match a with
  | ⟨0, _⟩ => show win0_0.index t (0 : Fin 3) * 1 + 1 * 0 = b.val; omega
  | ⟨1, _⟩ => show win0_0.index t (1 : Fin 3) * 4 + 1 * k.val = k.val; omega
  | ⟨2, _⟩ => show win0_0.index t (2 : Fin 3) * 768 + 1 * l.val = n.val; omega

/-- The ground-truth block of point `t` is the block's batch of the ground-truth array. -/
theorem boxes_blk (c : Dev nD) (t : Fin cfg0.N) (b : Fin 16) (hb : b.val = win0_4.index t (0 : Fin 3)) :
    boxes (iblk m c 1 t) = gtOf (V m c main_arg2) b := by
  obtain ⟨e00, e01, e02, e10, e11, e12, e20, e21, e22, e30, e31, e32, e41, b40, b42⟩ := idx_facts t
  funext g k
  show V m c main_arg2 (((cfg0.win 1).blk t).view.emb (ix3 (0 : Fin 1) g k)) = V m c main_arg2 (ix3 b g k)
  refine congrArg (V m c main_arg2) ?_
  funext a; apply Fin.ext
  match a with
  | ⟨0, _⟩ => show win0_1.index t (0 : Fin 3) * 1 + 1 * 0 = b.val; omega
  | ⟨1, _⟩ => show win0_1.index t (1 : Fin 3) * 512 + 1 * g.val = g.val; omega
  | ⟨2, _⟩ => show win0_1.index t (2 : Fin 3) * 4 + 1 * k.val = k.val; omega

/-- The crowd weight block of point `t` is the block's batch of the crowd weight array. -/
theorem weights2_blk (c : Dev nD) (t : Fin cfg0.N) (b : Fin 16) (hb : b.val = win0_4.index t (0 : Fin 3)) :
    weights (iblk m c 2 t) = wOf (V m c main_v13) b := by
  obtain ⟨e00, e01, e02, e10, e11, e12, e20, e21, e22, e30, e31, e32, e41, b40, b42⟩ := idx_facts t
  funext g
  show V m c main_v13 (((cfg0.win 2).blk t).view.emb (ix3 (0 : Fin 1) g (0 : Fin 1))) = V m c main_v13 (ix3 b g (0 : Fin 1))
  refine congrArg (V m c main_v13) ?_
  funext a; apply Fin.ext
  match a with
  | ⟨0, _⟩ => show win0_2.index t (0 : Fin 3) * 1 + 1 * 0 = b.val; omega
  | ⟨1, _⟩ => show win0_2.index t (1 : Fin 3) * 512 + 1 * g.val = g.val; omega
  | ⟨2, _⟩ => show win0_2.index t (2 : Fin 3) * 1 + 1 * 0 = 0; omega

/-- The non-crowd weight block of point `t` is the block's batch of the non-crowd weight array. -/
theorem weights3_blk (c : Dev nD) (t : Fin cfg0.N) (b : Fin 16) (hb : b.val = win0_4.index t (0 : Fin 3)) :
    weights (iblk m c 3 t) = wOf (V m c main_v15) b := by
  obtain ⟨e00, e01, e02, e10, e11, e12, e20, e21, e22, e30, e31, e32, e41, b40, b42⟩ := idx_facts t
  funext g
  show V m c main_v15 (((cfg0.win 3).blk t).view.emb (ix3 (0 : Fin 1) g (0 : Fin 1))) = V m c main_v15 (ix3 b g (0 : Fin 1))
  refine congrArg (V m c main_v15) ?_
  funext a; apply Fin.ext
  match a with
  | ⟨0, _⟩ => show win0_3.index t (0 : Fin 3) * 1 + 1 * 0 = b.val; omega
  | ⟨1, _⟩ => show win0_3.index t (1 : Fin 3) * 512 + 1 * g.val = g.val; omega
  | ⟨2, _⟩ => show win0_3.index t (2 : Fin 3) * 1 + 1 * 0 = 0; omega

/-! ## What each point writes back, and the tiling -/

/-- Reading block `t` of an array through output window 4's view is reading the array at the embedded index. -/
theorem read_blk4 (t : Fin cfg0.N) (G : FVec Ideal S16x1x6144 .f32) (y : S1x1x768.Idx) :
    View.read (Elt Ideal) ((cfg0.win 4).blk t).view G y = G (((cfg0.win 4).blk t).view.emb y) := rfl

/-- WHAT POINT `t` WRITES BACK to the first output array is block `t` of `bestArr` with the non-crowd weights. -/
theorem flushed4_eq (c : Dev nD) (t : Fin cfg0.N) :
    (dats m 0 c).flushed 4 t
      = ((cfg0.win 4).blk t).view.read (Elt Ideal) (bestArr (V m c main_v1) (V m c main_arg2) (V m c main_v15)) := by
  show (cfg0.win 4).cut (grid0.coords t) ((dats m 0 c).after 4 t) = _
  rw [after0_4]
  obtain ⟨e00, e01, e02, e10, e11, e12, e20, e21, e22, e30, e31, e32, e41, b40, b42⟩ := idx_facts t
  funext j
  obtain ⟨l, rfl⟩ := exists_lane j
  have hl : l.val < 768 := l.isLt
  refine Eq.trans (b := out0_4 (iblk m c 0 t) (iblk m c 1 t) (iblk m c 2 t) (iblk m c 3 t) (ix3 (0 : Fin 1) (0 : Fin 1) l)) rfl ?_
  refine Eq.trans ?_ (read_blk4 t _ _).symm
  rw [out4_apply (iblk m c 0 t) (iblk m c 1 t) (iblk m c 2 t) (iblk m c 3 t) l,
    bestArr_apply (V m c main_v1) (V m c main_arg2) (V m c main_v15)
      ⟨win0_4.index t (0 : Fin 3), by omega⟩ ⟨win0_4.index t (2 : Fin 3) * 768 + l.val, by omega⟩
      (((cfg0.win 4).blk t).view.emb (ix3 (0 : Fin 1) (0 : Fin 1) l))
      (by show win0_4.index t (0 : Fin 3) * 1 + 1 * 0 = win0_4.index t (0 : Fin 3); omega)
      (by show win0_4.index t (2 : Fin 3) * 768 + 1 * l.val = win0_4.index t (2 : Fin 3) * 768 + l.val; omega),
    coords_blk m c t l ⟨win0_4.index t (0 : Fin 3), by omega⟩ ⟨win0_4.index t (2 : Fin 3) * 768 + l.val, by omega⟩ rfl rfl, boxes_blk m c t ⟨win0_4.index t (0 : Fin 3), by omega⟩ rfl, weights3_blk m c t ⟨win0_4.index t (0 : Fin 3), by omega⟩ rfl]

/-- An index of the array is in point `t`'s block iff each coordinate is in the block's range on its axis. -/
theorem mem_blk4 (t : Fin cfg0.N) (i : S16x1x6144.Idx) :
    i ∈ ((cfg0.win 4).blk t).view.set ↔ ∀ a : Fin 3, win0_4.index t a * S1x1x768.size a ≤ (i a).val ∧ (i a).val < win0_4.index t a * S1x1x768.size a + S1x1x768.size a := by
  show i ∈ ((View.whole main_v16_0).slice (win0_4.rect t)).set ↔ _
  rw [View.set_slice_whole, Rect.mem_set_unit]
  exact Iff.rfl

/-- The blocks tile the array: lane `n` of row `b` is in the block of the point whose block indices are (b, 0, n / 768). -/
theorem cover4 (i : S16x1x6144.Idx) : ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 6144 := (i 2).isLt
  obtain ⟨t, ht⟩ := idx_onto ⟨(i 0).val, hi0⟩ ⟨(i 2).val / 768, by omega⟩
  have q0 : win0_4.index t (0 : Fin 3) = (i 0).val := congrFun ht 0
  have q1 : win0_4.index t (1 : Fin 3) = 0 := congrFun ht 1
  have q2 : win0_4.index t (2 : Fin 3) = (i 2).val / 768 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 768 ≤ (i 2).val ∧ (i 2).val < win0_4.index t (2 : Fin 3) * 768 + 768; omega

/-- Reading block `t` of an array through output window 5's view is reading the array at the embedded index. -/
theorem read_blk5 (t : Fin cfg0.N) (G : FVec Ideal S16x1x6144 .f32) (y : S1x1x768.Idx) :
    View.read (Elt Ideal) ((cfg0.win 5).blk t).view G y = G (((cfg0.win 5).blk t).view.emb y) := rfl

/-- What point `t` writes back to the second output array is block `t` of `bestArr` with the crowd weights. -/
theorem flushed5_eq (c : Dev nD) (t : Fin cfg0.N) :
    (dats m 0 c).flushed 5 t
      = ((cfg0.win 5).blk t).view.read (Elt Ideal) (bestArr (V m c main_v1) (V m c main_arg2) (V m c main_v13)) := by
  show (cfg0.win 5).cut (grid0.coords t) ((dats m 0 c).after 5 t) = _
  rw [after0_5]
  obtain ⟨e00, e01, e02, e10, e11, e12, e20, e21, e22, e30, e31, e32, e41, b40, b42⟩ := idx_facts t
  funext j
  obtain ⟨o50, o51, o52, o60, o61, o62, o70, o71, o72⟩ := idx_facts_out t
  obtain ⟨l, rfl⟩ := exists_lane j
  have hl : l.val < 768 := l.isLt
  refine Eq.trans (b := out0_5 (iblk m c 0 t) (iblk m c 1 t) (iblk m c 2 t) (iblk m c 3 t) (ix3 (0 : Fin 1) (0 : Fin 1) l)) rfl ?_
  refine Eq.trans ?_ (read_blk5 t _ _).symm
  rw [out5_apply (iblk m c 0 t) (iblk m c 1 t) (iblk m c 2 t) (iblk m c 3 t) l,
    bestArr_apply (V m c main_v1) (V m c main_arg2) (V m c main_v13)
      ⟨win0_4.index t (0 : Fin 3), by omega⟩ ⟨win0_4.index t (2 : Fin 3) * 768 + l.val, by omega⟩
      (((cfg0.win 5).blk t).view.emb (ix3 (0 : Fin 1) (0 : Fin 1) l))
      (by show win0_5.index t (0 : Fin 3) * 1 + 1 * 0 = win0_4.index t (0 : Fin 3); omega)
      (by show win0_5.index t (2 : Fin 3) * 768 + 1 * l.val = win0_4.index t (2 : Fin 3) * 768 + l.val; omega),
    coords_blk m c t l ⟨win0_4.index t (0 : Fin 3), by omega⟩ ⟨win0_4.index t (2 : Fin 3) * 768 + l.val, by omega⟩ rfl rfl, boxes_blk m c t ⟨win0_4.index t (0 : Fin 3), by omega⟩ rfl, weights2_blk m c t ⟨win0_4.index t (0 : Fin 3), by omega⟩ rfl]

/-- An index of the array is in point `t`'s block iff each coordinate is in the block's range on its axis. -/
theorem mem_blk5 (t : Fin cfg0.N) (i : S16x1x6144.Idx) :
    i ∈ ((cfg0.win 5).blk t).view.set ↔ ∀ a : Fin 3, win0_5.index t a * S1x1x768.size a ≤ (i a).val ∧ (i a).val < win0_5.index t a * S1x1x768.size a + S1x1x768.size a := by
  show i ∈ ((View.whole main_v16_1).slice (win0_5.rect t)).set ↔ _
  rw [View.set_slice_whole, Rect.mem_set_unit]
  exact Iff.rfl

/-- The blocks tile the array: lane `n` of row `b` is in the block of the point whose block indices are (b, 0, n / 768). -/
theorem cover5 (i : S16x1x6144.Idx) : ∃ t : Fin cfg0.N, (cfg0.win 5).flush t = true ∧ i ∈ ((cfg0.win 5).blk t).view.set := by
  have hi0 : (i 0).val < 16 := (i 0).isLt
  have hi1 : (i 1).val < 1 := (i 1).isLt
  have hi2 : (i 2).val < 6144 := (i 2).isLt
  obtain ⟨t, ht⟩ := idx_onto ⟨(i 0).val, hi0⟩ ⟨(i 2).val / 768, by omega⟩
  have q0 : win0_4.index t (0 : Fin 3) = (i 0).val := congrFun ht 0
  have q1 : win0_4.index t (1 : Fin 3) = 0 := congrFun ht 1
  have q2 : win0_4.index t (2 : Fin 3) = (i 2).val / 768 := congrFun ht 2
  obtain ⟨o50, o51, o52, o60, o61, o62, o70, o71, o72⟩ := idx_facts_out t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 768 ≤ (i 2).val ∧ (i 2).val < win0_5.index t (2 : Fin 3) * 768 + 768; omega

/-- Reading block `t` of an array through output window 6's view is reading the array at the embedded index. -/
theorem read_blk6 (t : Fin cfg0.N) (G : FVec Ideal S16x1x6144 .f32) (y : S1x1x768.Idx) :
    View.read (Elt Ideal) ((cfg0.win 6).blk t).view G y = G (((cfg0.win 6).blk t).view.emb y) := rfl

/-- What point `t` writes back to the third output array is block `t` of `posArr`. -/
theorem flushed6_eq (c : Dev nD) (t : Fin cfg0.N) :
    (dats m 0 c).flushed 6 t
      = ((cfg0.win 6).blk t).view.read (Elt Ideal) (posArr (V m c main_v1) (V m c main_arg2) (V m c main_v15)) := by
  show (cfg0.win 6).cut (grid0.coords t) ((dats m 0 c).after 6 t) = _
  rw [after0_6]
  obtain ⟨e00, e01, e02, e10, e11, e12, e20, e21, e22, e30, e31, e32, e41, b40, b42⟩ := idx_facts t
  funext j
  obtain ⟨o50, o51, o52, o60, o61, o62, o70, o71, o72⟩ := idx_facts_out t
  obtain ⟨l, rfl⟩ := exists_lane j
  have hl : l.val < 768 := l.isLt
  refine Eq.trans (b := out0_6 (iblk m c 0 t) (iblk m c 1 t) (iblk m c 2 t) (iblk m c 3 t) (ix3 (0 : Fin 1) (0 : Fin 1) l)) rfl ?_
  refine Eq.trans ?_ (read_blk6 t _ _).symm
  rw [out6_apply (iblk m c 0 t) (iblk m c 1 t) (iblk m c 2 t) (iblk m c 3 t) l,
    posArr_apply (V m c main_v1) (V m c main_arg2) (V m c main_v15)
      ⟨win0_4.index t (0 : Fin 3), by omega⟩ ⟨win0_4.index t (2 : Fin 3) * 768 + l.val, by omega⟩
      (((cfg0.win 6).blk t).view.emb (ix3 (0 : Fin 1) (0 : Fin 1) l))
      (by show win0_6.index t (0 : Fin 3) * 1 + 1 * 0 = win0_4.index t (0 : Fin 3); omega)
      (by show win0_6.index t (2 : Fin 3) * 768 + 1 * l.val = win0_4.index t (2 : Fin 3) * 768 + l.val; omega),
    coords_blk m c t l ⟨win0_4.index t (0 : Fin 3), by omega⟩ ⟨win0_4.index t (2 : Fin 3) * 768 + l.val, by omega⟩ rfl rfl, boxes_blk m c t ⟨win0_4.index t (0 : Fin 3), by omega⟩ rfl, weights3_blk m c t ⟨win0_4.index t (0 : Fin 3), by omega⟩ rfl]

/-- An index of the array is in point `t`'s block iff each coordinate is in the block's range on its axis. -/
theorem mem_blk6 (t : Fin cfg0.N) (i : S16x1x6144.Idx) :
    i ∈ ((cfg0.win 6).blk t).view.set ↔ ∀ a : Fin 3, win0_6.index t a * S1x1x768.size a ≤ (i a).val ∧ (i a).val < win0_6.index t a * S1x1x768.size a + S1x1x768.size a := by
  show i ∈ ((View.whole main_v16_2).slice (win0_6.rect t)).set ↔ _
  rw [View.set_slice_whole, Rect.mem_set_unit]
  exact Iff.rfl

/-- The blocks tile the array: lane `n` of row `b` is in the block of the point whose block indices are (b, 0, n / 768). -/
theorem cover6 (i : S16x1x6144.Idx) : ∃ t : Fin cfg0.N, (cfg0.win 6).flush t = true ∧ i ∈ ((cfg0.win 6).blk t).view.set := by
  have hi0 : (i 0).val < 16 := (i 0).isLt
  have hi1 : (i 1).val < 1 := (i 1).isLt
  have hi2 : (i 2).val < 6144 := (i 2).isLt
  obtain ⟨t, ht⟩ := idx_onto ⟨(i 0).val, hi0⟩ ⟨(i 2).val / 768, by omega⟩
  have q0 : win0_4.index t (0 : Fin 3) = (i 0).val := congrFun ht 0
  have q1 : win0_4.index t (1 : Fin 3) = 0 := congrFun ht 1
  have q2 : win0_4.index t (2 : Fin 3) = (i 2).val / 768 := congrFun ht 2
  obtain ⟨o50, o51, o52, o60, o61, o62, o70, o71, o72⟩ := idx_facts_out t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 768 ≤ (i 2).val ∧ (i 2).val < win0_6.index t (2 : Fin 3) * 768 + 768; omega

/-- Reading block `t` of an array through output window 7's view is reading the array at the embedded index. -/
theorem read_blk7 (t : Fin cfg0.N) (G : FVec Ideal S16x1x6144 .f32) (y : S1x1x768.Idx) :
    View.read (Elt Ideal) ((cfg0.win 7).blk t).view G y = G (((cfg0.win 7).blk t).view.emb y) := rfl

/-- What point `t` writes back to the fourth output array is block `t` of `negArr`. -/
theorem flushed7_eq (c : Dev nD) (t : Fin cfg0.N) :
    (dats m 0 c).flushed 7 t
      = ((cfg0.win 7).blk t).view.read (Elt Ideal) (negArr (V m c main_v1) (V m c main_arg2) (V m c main_v13) (V m c main_v15)) := by
  show (cfg0.win 7).cut (grid0.coords t) ((dats m 0 c).after 7 t) = _
  rw [after0_7]
  obtain ⟨e00, e01, e02, e10, e11, e12, e20, e21, e22, e30, e31, e32, e41, b40, b42⟩ := idx_facts t
  funext j
  obtain ⟨o50, o51, o52, o60, o61, o62, o70, o71, o72⟩ := idx_facts_out t
  obtain ⟨l, rfl⟩ := exists_lane j
  have hl : l.val < 768 := l.isLt
  refine Eq.trans (b := out0_7 (iblk m c 0 t) (iblk m c 1 t) (iblk m c 2 t) (iblk m c 3 t) (ix3 (0 : Fin 1) (0 : Fin 1) l)) rfl ?_
  refine Eq.trans ?_ (read_blk7 t _ _).symm
  rw [out7_apply (iblk m c 0 t) (iblk m c 1 t) (iblk m c 2 t) (iblk m c 3 t) l,
    negArr_apply (V m c main_v1) (V m c main_arg2) (V m c main_v13) (V m c main_v15)
      ⟨win0_4.index t (0 : Fin 3), by omega⟩ ⟨win0_4.index t (2 : Fin 3) * 768 + l.val, by omega⟩
      (((cfg0.win 7).blk t).view.emb (ix3 (0 : Fin 1) (0 : Fin 1) l))
      (by show win0_7.index t (0 : Fin 3) * 1 + 1 * 0 = win0_4.index t (0 : Fin 3); omega)
      (by show win0_7.index t (2 : Fin 3) * 768 + 1 * l.val = win0_4.index t (2 : Fin 3) * 768 + l.val; omega),
    coords_blk m c t l ⟨win0_4.index t (0 : Fin 3), by omega⟩ ⟨win0_4.index t (2 : Fin 3) * 768 + l.val, by omega⟩ rfl rfl, boxes_blk m c t ⟨win0_4.index t (0 : Fin 3), by omega⟩ rfl, weights3_blk m c t ⟨win0_4.index t (0 : Fin 3), by omega⟩ rfl, weights2_blk m c t ⟨win0_4.index t (0 : Fin 3), by omega⟩ rfl]

/-- An index of the array is in point `t`'s block iff each coordinate is in the block's range on its axis. -/
theorem mem_blk7 (t : Fin cfg0.N) (i : S16x1x6144.Idx) :
    i ∈ ((cfg0.win 7).blk t).view.set ↔ ∀ a : Fin 3, win0_7.index t a * S1x1x768.size a ≤ (i a).val ∧ (i a).val < win0_7.index t a * S1x1x768.size a + S1x1x768.size a := by
  show i ∈ ((View.whole main_v16_3).slice (win0_7.rect t)).set ↔ _
  rw [View.set_slice_whole, Rect.mem_set_unit]
  exact Iff.rfl

/-- The blocks tile the array: lane `n` of row `b` is in the block of the point whose block indices are (b, 0, n / 768). -/
theorem cover7 (i : S16x1x6144.Idx) : ∃ t : Fin cfg0.N, (cfg0.win 7).flush t = true ∧ i ∈ ((cfg0.win 7).blk t).view.set := by
  have hi0 : (i 0).val < 16 := (i 0).isLt
  have hi1 : (i 1).val < 1 := (i 1).isLt
  have hi2 : (i 2).val < 6144 := (i 2).isLt
  obtain ⟨t, ht⟩ := idx_onto ⟨(i 0).val, hi0⟩ ⟨(i 2).val / 768, by omega⟩
  have q0 : win0_4.index t (0 : Fin 3) = (i 0).val := congrFun ht 0
  have q1 : win0_4.index t (1 : Fin 3) = 0 := congrFun ht 1
  have q2 : win0_4.index t (2 : Fin 3) = (i 2).val / 768 := congrFun ht 2
  obtain ⟨o50, o51, o52, o60, o61, o62, o70, o71, o72⟩ := idx_facts_out t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 768 ≤ (i 2).val ∧ (i 2).val < win0_7.index t (2 : Fin 3) * 768 + 768; omega

/-! ## The four output arrays after the run -/

/-- The first output array ends holding the best ratio weighted by the non-crowd column (`main_v15`). -/
theorem final4 (c : Dev nD) : (dats m 0 c).arrAt 4 cfg0.N = bestArr (V m c main_v1) (V m c main_arg2) (V m c main_v15) := by
  exact (dats m 0 c).arrAt_eq_of_cover 4 (bestArr (V m c main_v1) (V m c main_arg2) (V m c main_v15)) (fun t _ => flushed4_eq m c t) cover4
/-- The second, the best ratio weighted by the crowd column (`main_v13`). -/
theorem final5 (c : Dev nD) : (dats m 0 c).arrAt 5 cfg0.N = bestArr (V m c main_v1) (V m c main_arg2) (V m c main_v13) := by
  exact (dats m 0 c).arrAt_eq_of_cover 5 (bestArr (V m c main_v1) (V m c main_arg2) (V m c main_v13)) (fun t _ => flushed5_eq m c t) cover5
/-- The third, the first flag as a number. -/
theorem final6 (c : Dev nD) : (dats m 0 c).arrAt 6 cfg0.N = posArr (V m c main_v1) (V m c main_arg2) (V m c main_v15) := by
  exact (dats m 0 c).arrAt_eq_of_cover 6 (posArr (V m c main_v1) (V m c main_arg2) (V m c main_v15)) (fun t _ => flushed6_eq m c t) cover6
/-- The fourth, the second flag as a number. -/
theorem final7 (c : Dev nD) : (dats m 0 c).arrAt 7 cfg0.N = negArr (V m c main_v1) (V m c main_arg2) (V m c main_v13) (V m c main_v15) := by
  exact (dats m 0 c).arrAt_eq_of_cover 7 (negArr (V m c main_v1) (V m c main_arg2) (V m c main_v13) (V m c main_v15)) (fun t _ => flushed7_eq m c t) cover7

end Cert.KernelIdeal.Arrays

end
-- ==== Proof.KernelTail.lean ====
/-
  The kernel program's host operations after the region, as functions of the four output arrays: each [16, 1, 6144]
  array is cut back to its first 6000 lanes and loses its unit axis; the first two are then stacked along a new middle
  axis, and the last two are compared with one half.
-/
import proofs.«173920_j8624294330475_1_alg».proof.KernelIdeal
import proofs.«173920_j8624294330475_1_alg».proof.Proof.Gen.KernelIdeal
import Idealize.ShloMosaic.PureOps.Ideal

noncomputable section

namespace Cert.KernelIdeal.Tail

open Cert.KernelIdeal Cert.KernelIdeal.Facts₀ Idealize.ShloMosaic

/-- An output array cut back to 6000 lanes, its unit axis dropped. -/
def cutLanes (o : FVec Ideal S16x1x6144 .f32) : FVec Ideal S16x6000 .f32 :=
  shapeCast S16x6000 (extractStridedSlice S16x1x6000 ![0, 0, 0] o slices_S16x1x6144_S16x1x6000_0_0_0) shapeCasts_S16x1x6000_S16x6000

/-- Two output arrays, cut back, stacked along a new middle axis. -/
def stackTail (o0 o1 : FVec Ideal S16x1x6144 .f32) : FVec Ideal S16x2x6000 .f32 :=
  concatenate S16x2x6000 1
    [⟨S16x1x6000, broadcastInDim S16x1x6000 ![0, 2] bcast_S16x6000_S16x1x6000_0_2 (cutLanes o0)⟩,
     ⟨S16x1x6000, broadcastInDim S16x1x6000 ![0, 2] bcast_S16x6000_S16x1x6000_0_2 (cutLanes o1)⟩]
    concatenates_S16x1x6000_S16x1x6000_S16x2x6000_d1

/-- An output array, cut back, compared with one half. -/
def flagTail (o : FVec Ideal S16x1x6144 .f32) : IVec S16x6000 1 :=
  cmpf .ogt (cutLanes o) (broadcastInDim S16x6000 ![] bcast_S_S16x6000 (constant (F := Ideal) S_ .f32 0x3F000000#32))

end Cert.KernelIdeal.Tail

end
-- ==== Proof.HostLayout.lean ====
/-
  The kernel program's host operations around the region, read at an index. Before the region the box array [16, 6000, 4]
  is padded with 144 rows per batch and transposed to [16, 4, 6144]: at a lane below 6000 it holds the box's coordinate.
  The two flag arrays [16, 512] are written out as numbers and given a trailing unit axis. After the region each output
  array [16, 1, 6144] is cut back to its first 6000 lanes and its unit axis dropped, and the two flag outputs are
  compared with one half.
-/
import proofs.«173920_j8624294330475_1_alg».proof.KernelIdeal
import proofs.«173920_j8624294330475_1_alg».proof.Proof.Spec
import proofs.«173920_j8624294330475_1_alg».proof.Proof.LibLayout
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.HostLayout

open Cert.KernelIdeal Cert.BoxOverlap
open Idealize.ShloMosaic Idealize.ShloMosaic.ValueIdx

/-- The padded, transposed box array at coordinate `k` of a lane `n` below 6000 is box `n`'s coordinate `k`. -/
theorem padT_apply (R : FVec Ideal S16x6000x4 .f32) (pv : FVec Ideal S_ .f32)
    (hp : S16x6000x4.Pads (![0, 0, 0] : Fin 3 → Nat) ![0, 144, 0] ![0, 0, 0] S16x6144x4) (hs : 0 < S_.numel)
    (ht : S16x6144x4.Transposes [0, 2, 1] S16x4x6144) (b : Fin 16) (k : Fin 4) (n : Fin 6144) (hn : n.val < 6000) :
    transpose S16x4x6144 [0, 2, 1] (pad S16x6144x4 ![0, 0, 0] ![0, 144, 0] ![0, 0, 0] R pv hp hs) ht (ix3 b k n)
      = R (ix3 b (⟨n.val, hn⟩ : Fin 6000) k) := by
  refine (transpose_ix3_021_apply _ ht b k n).trans ?_
  exact pad_apply_of_inside _ _ _ R pv hp hs _ _ (fun a => by
    match a with
    | ⟨0, _⟩ => show b.val = 0 + b.val * (0 + 1); omega
    | ⟨1, _⟩ => show n.val = 0 + n.val * (0 + 1); omega
    | ⟨2, _⟩ => show k.val = 0 + k.val * (0 + 1); omega)

/-- A flag array written out as numbers, with a trailing unit axis, at (b, g, 0) is the flag (b, g) as a number. -/
theorem weightCol_apply (X : IVec S16x512 1) (hb : S16x512.BroadcastsInDim S16x512x1 (![0, 1] : Fin 2 → Fin S16x512x1.rank))
    (b : Fin 16) (g : Fin 512) :
    broadcastInDim S16x512x1 ![0, 1] hb (uitofp (F := Ideal) .f32 X) (ix3 b g (0 : Fin 1)) = (((X (ix2 b g)).toNat : ℝ) : EReal) := by
  exact (Cert.LibLayout.bcast_ab_ab1 hb (uitofp (F := Ideal) .f32 X) b g (0 : Fin 1)).trans rfl

/-- An output array cut back to 6000 lanes with its unit axis dropped, at (b, n), is the array at (b, 0, n). -/
theorem cutLanes_apply (O : FVec Ideal S16x1x6144 .f32) (hs : S16x1x6144.Slices ![0, 0, 0] S16x1x6000)
    (hc : S16x1x6000.ShapeCasts S16x6000) (b : Fin 16) (n : Fin 6000) :
    shapeCast S16x6000 (extractStridedSlice S16x1x6000 ![0, 0, 0] O hs) hc (ix2 b n)
      = O (ix3 b (0 : Fin 1) (⟨n.val, Nat.lt_trans n.isLt (by decide)⟩ : Fin 6144)) := by
  refine (shapeCast_apply _ hc (ix2 b n) (ix3 b (0 : Fin 1) n) (by
    rw [Shape.rowMajor_val_three, Shape.rowMajor_val_two]
    show (b.val * 1 + 0) * 6000 + n.val = b.val * 6000 + n.val
    omega)).trans ?_
  exact extractStridedSlice_apply _ O hs _ _ (fun a => by
    match a with
    | ⟨0, _⟩ => show b.val = 0 + b.val; omega
    | ⟨1, _⟩ => show 0 = 0 + 0; rfl
    | ⟨2, _⟩ => show n.val = 0 + n.val; omega)

/-- The same, compared with the splat of one half: the comparison of the array's entry with one half. -/
theorem cutLanes_gt_half_apply (O : FVec Ideal S16x1x6144 .f32) (hs : S16x1x6144.Slices ![0, 0, 0] S16x1x6000)
    (hc : S16x1x6000.ShapeCasts S16x6000) (hb : S_.BroadcastsInDim S16x6000 (![] : Fin 0 → Fin S16x6000.rank))
    (b : Fin 16) (n : Fin 6000) :
    cmpf .ogt (shapeCast S16x6000 (extractStridedSlice S16x1x6000 ![0, 0, 0] O hs) hc)
        (broadcastInDim S16x6000 ![] hb (constant (F := Ideal) S_ .f32 0x3F000000#32)) (ix2 b n)
      = Ideal.cmp .ogt (O (ix3 b (0 : Fin 1) (⟨n.val, Nat.lt_trans n.isLt (by decide)⟩ : Fin 6144))) halfW := by
  rw [cmpf_apply, cutLanes_apply O hs hc b n, Cert.LibLayout.bcast_scalar]
  rfl

end Cert.KernelIdeal.HostLayout

end
-- ==== Proof.KernelRun.lean ====
/-
  The kernel program's run, read: every weakly fair execution ends with the three results at the tail functions of the
  four output arrays, each output array at its function of the arrays the region reads, and the arguments unchanged. The
  arrays the region reads are the host operations before it applied to the arguments: the box array padded and
  transposed, the ground-truth boxes themselves, and the crowd and non-crowd flags written out as columns of numbers.
-/
import proofs.«173920_j8624294330475_1_alg».proof.Proof.Gen.KernelIdeal.Frame
import proofs.«173920_j8624294330475_1_alg».proof.Proof.KernelArrays
import proofs.«173920_j8624294330475_1_alg».proof.Proof.KernelTail
import proofs.«173920_j8624294330475_1_alg».proof.Proof.HostLayout
import Idealize.ShloMosaic.Lib.Pipeline.Value
import Idealize.ShloMosaic.Lib.StableHlo.Run
import Idealize.ShloMosaic.Lib.ValueIdx

set_option maxRecDepth 16384

noncomputable section

namespace Cert.KernelIdeal.RunValue

open Cert.KernelIdeal Cert.KernelIdeal.Gen Cert.KernelIdeal.Arrays Cert.KernelIdeal.Tail
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The host operations after the region -/

/-- The contents the operations after the region start from hold, at each output array's buffer, that array after the run. -/
theorem tailArr (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 launch0.win.arr_inj c _ _ w

set_option maxHeartbeats 2000000 in
/-- The stacked result is the tail function of the first two output arrays. -/
theorem tail_v31 (c : Dev nD) :
    Pipeline.afterTail₀ cfgs (dats m) 0 (V0 m) [hostOps1] c main_v31
      = stackTail ((dats m 0 c).arrAt 4 cfg0.N) ((dats m 0 c).arrAt 5 cfg0.N) := by
  unfold Pipeline.afterTail₀
  show StableHlo.after hostOps1 _ (Proc.devRef .tc main_v31) = _
  after_results
  have e4 : Pipeline.withArrays spec0 c (V0 m c) (fun w => (dats m 0 c).arrAt w cfg0.N) (Proc.devRef .tc main_v16_0)
      = (dats m 0 c).arrAt 4 cfg0.N := tailArr m c 4
  have e5 : Pipeline.withArrays spec0 c (V0 m c) (fun w => (dats m 0 c).arrAt w cfg0.N) (Proc.devRef .tc main_v16_1)
      = (dats m 0 c).arrAt 5 cfg0.N := tailArr m c 5
  rw [e4, e5]
  rfl

set_option maxHeartbeats 2000000 in
/-- The first flag result is the tail function of the third output array. -/
theorem tail_v24 (c : Dev nD) :
    Pipeline.afterTail₀ cfgs (dats m) 0 (V0 m) [hostOps1] c main_v24 = flagTail ((dats m 0 c).arrAt 6 cfg0.N) := by
  unfold Pipeline.afterTail₀
  show StableHlo.after hostOps1 _ (Proc.devRef .tc main_v24) = _
  after_results
  have e6 : Pipeline.withArrays spec0 c (V0 m c) (fun w => (dats m 0 c).arrAt w cfg0.N) (Proc.devRef .tc main_v16_2)
      = (dats m 0 c).arrAt 6 cfg0.N := tailArr m c 6
  rw [e6]
  rfl

set_option maxHeartbeats 2000000 in
/-- The second flag result is the tail function of the fourth output array. -/
theorem tail_v28 (c : Dev nD) :
    Pipeline.afterTail₀ cfgs (dats m) 0 (V0 m) [hostOps1] c main_v28 = flagTail ((dats m 0 c).arrAt 7 cfg0.N) := by
  unfold Pipeline.afterTail₀
  show StableHlo.after hostOps1 _ (Proc.devRef .tc main_v28) = _
  after_results
  have e7 : Pipeline.withArrays spec0 c (V0 m c) (fun w => (dats m 0 c).arrAt w cfg0.N) (Proc.devRef .tc main_v16_3)
      = (dats m 0 c).arrAt 7 cfg0.N := tailArr m c 7
  rw [e7]
  rfl

/-! ## The arrays the region reads -/

/-- The flags of the ground-truth boxes that are valid and have a negative id (crowd), by the host operations that
    compute them. -/
def crowdBits (I : IVec S16x512 32) (B : FVec Ideal S16x512x4 .f32) : IVec S16x512 1 :=
  andi (cmpf .ogt (Host.reduceAdd (Host.absf B) (constant (F := Ideal) S_ .f32 0x00000000#32) reducesTo_S16x512x4_S16x512_d2 h_S_)
      (broadcastInDim S16x512 ![] bcast_S_S16x512 (constant (F := Ideal) S_ .f32 0x00000000#32)))
    (cmpi .slt I (broadcastInDim S16x512 ![] bcast_S_S16x512 (constantI S_ 32 0#32)))

/-- The flags of the ground-truth boxes that are valid and have a positive id (non-crowd). -/
def plainBits (I : IVec S16x512 32) (B : FVec Ideal S16x512x4 .f32) : IVec S16x512 1 :=
  andi (cmpf .ogt (Host.reduceAdd (Host.absf B) (constant (F := Ideal) S_ .f32 0x00000000#32) reducesTo_S16x512x4_S16x512_d2 h_S_)
      (broadcastInDim S16x512 ![] bcast_S_S16x512 (constant (F := Ideal) S_ .f32 0x00000000#32)))
    (cmpi .sgt I (broadcastInDim S16x512 ![] bcast_S_S16x512 (constantI S_ 32 0#32)))

set_option maxHeartbeats 2000000 in
/-- The region finds the box array padded by 144 rows per batch and transposed. -/
theorem entry_v1 (c : Dev nD) : (V m c main_v1 : S16x4x6144.Idx → EReal) =
    transpose S16x4x6144 [0, 2, 1] (pad S16x6144x4 ![0, 0, 0] ![0, 144, 0] ![0, 0, 0] (m ((c.tc : Thread nD τ).loc main_arg0))
      (sitofp (F := Ideal) .f32 (constantI S_ 32 0#32)) pads_S16x6000x4_S16x6144x4_000_01440_000 h_S_) transposes_S16x6144x4_S16x4x6144_0_2_1 := by
  dsimp only [V, V0]
  simp only [hostOps0, hostOps0_1, hostOps0_2, List.flatten_cons, List.flatten_nil, List.append_nil, List.cons_append, List.nil_append]
  after_results
  rfl

set_option maxHeartbeats 2000000 in
/-- … the crowd flags as a column of numbers, -/
theorem entry_v13 (c : Dev nD) : (V m c main_v13 : S16x512x1.Idx → EReal) =
    broadcastInDim S16x512x1 ![0, 1] bcast_S16x512_S16x512x1_0_1 (uitofp (F := Ideal) .f32 (crowdBits (m ((c.tc : Thread nD τ).loc main_arg1)) (m ((c.tc : Thread nD τ).loc main_arg2)))) := by
  dsimp only [V, V0]
  simp only [hostOps0, hostOps0_1, hostOps0_2, List.flatten_cons, List.flatten_nil, List.append_nil, List.cons_append, List.nil_append]
  after_results
  rfl

set_option maxHeartbeats 2000000 in
/-- … and the non-crowd flags as a column of numbers. -/
theorem entry_v15 (c : Dev nD) : (V m c main_v15 : S16x512x1.Idx → EReal) =
    broadcastInDim S16x512x1 ![0, 1] bcast_S16x512_S16x512x1_0_1 (uitofp (F := Ideal) .f32 (plainBits (m ((c.tc : Thread nD τ).loc main_arg1)) (m ((c.tc : Thread nD τ).loc main_arg2)))) := by
  dsimp only [V, V0]
  simp only [hostOps0, hostOps0_1, hostOps0_2, List.flatten_cons, List.flatten_nil, List.append_nil, List.cons_append, List.nil_append]
  after_results
  rfl

/-- At a lane below 6000 the transposed array holds the box's coordinate. -/
theorem entry_rois (c : Dev nD) (b : Fin 16) (k : Fin 4) (n : Fin 6144) (hn : n.val < 6000) :
    V m c main_v1 (ix3 b k n) = m ((c.tc : Thread nD τ).loc main_arg0) (ix3 b (⟨n.val, hn⟩ : Fin 6000) k) := by
  rw [entry_v1]
  exact HostLayout.padT_apply _ _ _ _ _ b k n hn

theorem entry_crowd (c : Dev nD) (b : Fin 16) (g : Fin 512) :
    V m c main_v13 (ix3 b g (0 : Fin 1)) = (((crowdBits (m ((c.tc : Thread nD τ).loc main_arg1)) (m ((c.tc : Thread nD τ).loc main_arg2)) (ix2 b g)).toNat : ℝ) : EReal) := by
  rw [entry_v13]
  exact HostLayout.weightCol_apply _ _ b g

theorem entry_plain (c : Dev nD) (b : Fin 16) (g : Fin 512) :
    V m c main_v15 (ix3 b g (0 : Fin 1)) = (((plainBits (m ((c.tc : Thread nD τ).loc main_arg1)) (m ((c.tc : Thread nD τ).loc main_arg2)) (ix2 b g)).toNat : ℝ) : EReal) := by
  rw [entry_v15]
  exact HostLayout.weightCol_apply _ _ b g

/-! ## The run -/

/-- Every weakly fair execution of the kernel program terminates with its three results at the tail functions of the
    output arrays' closed forms, and its arguments unchanged. -/
theorem run : θ_run defs (onTc (τ := τ) (main (F := Ideal))) ⟨m, fun _ => 0, ρ⟩ fun r => ∀ c : Dev nD,
      r.2.mem ((c.tc : Thread nD τ).loc main_v31) = stackTail (bestArr (V m c main_v1) (V m c main_arg2) (V m c main_v15)) (bestArr (V m c main_v1) (V m c main_arg2) (V m c main_v13))
      ∧ r.2.mem ((c.tc : Thread nD τ).loc main_v24) = flagTail (posArr (V m c main_v1) (V m c main_arg2) (V m c main_v15))
      ∧ r.2.mem ((c.tc : Thread nD τ).loc main_v28) = flagTail (negArr (V m c main_v1) (V m c main_arg2) (V m c main_v13) (V m c main_v15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v31 (Pipeline.mem_restRefs_of main_v31 (by decide) (by decide))).trans
        ((tail_v31 m c).trans (by rw [final4 m c, final5 m c])),
      ((h c).2 main_v24 (Pipeline.mem_restRefs_of main_v24 (by decide) (by decide))).trans
        ((tail_v24 m c).trans (by rw [final6 m c])),
      ((h c).2 main_v28 (Pipeline.mem_restRefs_of main_v28 (by decide) (by decide))).trans
        ((tail_v28 m c).trans (by rw [final7 m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.RunValue

end
-- ==== Proof.RefValue.lean ====
/-
  The reference's four results, read at an index, are the specification's functions of the argument arrays.

  For batch `b` and box `n`: the best overlap ratio of box `(b, n)` against the non-crowd (resp. crowd) ground-truth boxes of
  batch `b` is `pickedBest` of the box's four coordinates, the batch's 512 ground-truth boxes and the batch's non-crowd
  (resp. crowd) flags; the two classification results are `posFlag` and `negFlag` of the box's liveness and those two
  best ratios. The flags themselves (which ground-truth boxes are crowd, which are not) stay the reference's own stages
  `val_main_v10` (crowd) and `val_main_v13` (non-crowd): both programs compute them by the same host operations.
-/
import proofs.«173920_j8624294330475_1_alg».proof.Proof.RefRead
import proofs.«173920_j8624294330475_1_alg».proof.Proof.Spec
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.ReadP Cert.BoxOverlap
open Idealize.ShloMosaic Idealize.ShloMosaic.ValueIdx

/-- The four coordinates of box `n` of batch `b`. -/
abbrev roi (R : FVec Ideal S16x6000x4 .f32) (b : Fin 16) (n : Fin 6000) : Fin 4 → EReal := fun k => R (ix3 b n k)
/-- The 512 ground-truth boxes of batch `b`. -/
abbrev gts (B : FVec Ideal S16x512x4 .f32) (b : Fin 16) : Fin 512 → Fin 4 → EReal := fun g k => B (ix3 b g k)
/-- Batch `b`'s non-crowd flags and crowd flags: the reference's own stages. -/
abbrev ncSel (I : IVec S16x512 32) (B : FVec Ideal S16x512x4 .f32) (b : Fin 16) : Fin 512 → BitVec 1 :=
  fun g => val_main_v13 (F := Ideal) I B (ix2 b g)
abbrev cSel (I : IVec S16x512 32) (B : FVec Ideal S16x512x4 .f32) (b : Fin 16) : Fin 512 → BitVec 1 :=
  fun g => val_main_v10 (F := Ideal) I B (ix2 b g)

/-! ### A coordinate of a box, read through the broadcast, the slice and the reshape that isolate it -/

theorem v17_at (R : FVec Ideal S16x6000x4 .f32) (i : S16x6000x1.Idx) :
    val_main_v17 (F := Ideal) R i = R (ix3 (i 0) (i 1) 0) := by
  rw [val_main_v17_apply, val_main_v16_apply, val_main_v14_apply]
  refine congrArg R (funext fun a => Fin.ext ?_)
  have h0 : (i 0).val < 16 := (i 0).isLt
  have h1 : (i 1).val < 6000 := (i 1).isLt
  have h2 : (i 2).val < 1 := (i 2).isLt
  match a with
  | ⟨0, _⟩ => show (((i 0).val * 6000 + (i 1).val) * 1 + (i 2).val) / 6000 = (i 0).val; omega
  | ⟨1, _⟩ => show (((i 0).val * 6000 + (i 1).val) * 1 + (i 2).val) / 1 % 6000 = (i 1).val; omega
  | ⟨2, _⟩ => rfl

theorem v24_at (R : FVec Ideal S16x6000x4 .f32) (i : S16x6000x1.Idx) :
    val_main_v24 (F := Ideal) R i = R (ix3 (i 0) (i 1) 1) := by
  rw [val_main_v24_apply, val_main_v23_apply, val_main_v14_apply]
  refine congrArg R (funext fun a => Fin.ext ?_)
  have h0 : (i 0).val < 16 := (i 0).isLt
  have h1 : (i 1).val < 6000 := (i 1).isLt
  have h2 : (i 2).val < 1 := (i 2).isLt
  match a with
  | ⟨0, _⟩ => show (((i 0).val * 6000 + (i 1).val) * 1 + (i 2).val) / 6000 = (i 0).val; omega
  | ⟨1, _⟩ => show (((i 0).val * 6000 + (i 1).val) * 1 + (i 2).val) / 1 % 6000 = (i 1).val; omega
  | ⟨2, _⟩ => rfl

theorem v31_at (R : FVec Ideal S16x6000x4 .f32) (i : S16x6000x1.Idx) :
    val_main_v31 (F := Ideal) R i = R (ix3 (i 0) (i 1) 2) := by
  rw [val_main_v31_apply, val_main_v30_apply, val_main_v14_apply]
  refine congrArg R (funext fun a => Fin.ext ?_)
  have h0 : (i 0).val < 16 := (i 0).isLt
  have h1 : (i 1).val < 6000 := (i 1).isLt
  have h2 : (i 2).val < 1 := (i 2).isLt
  match a with
  | ⟨0, _⟩ => show (((i 0).val * 6000 + (i 1).val) * 1 + (i 2).val) / 6000 = (i 0).val; omega
  | ⟨1, _⟩ => show (((i 0).val * 6000 + (i 1).val) * 1 + (i 2).val) / 1 % 6000 = (i 1).val; omega
  | ⟨2, _⟩ => rfl

theorem v38_at (R : FVec Ideal S16x6000x4 .f32) (i : S16x6000x1.Idx) :
    val_main_v38 (F := Ideal) R i = R (ix3 (i 0) (i 1) 3) := by
  rw [val_main_v38_apply, val_main_v37_apply, val_main_v14_apply]
  refine congrArg R (funext fun a => Fin.ext ?_)
  have h0 : (i 0).val < 16 := (i 0).isLt
  have h1 : (i 1).val < 6000 := (i 1).isLt
  have h2 : (i 2).val < 1 := (i 2).isLt
  match a with
  | ⟨0, _⟩ => show (((i 0).val * 6000 + (i 1).val) * 1 + (i 2).val) / 6000 = (i 0).val; omega
  | ⟨1, _⟩ => show (((i 0).val * 6000 + (i 1).val) * 1 + (i 2).val) / 1 % 6000 = (i 1).val; omega
  | ⟨2, _⟩ => rfl

theorem v52_at (R : FVec Ideal S16x6000x4 .f32) (i : S16x6000x1.Idx) :
    val_main_v52 (F := Ideal) R i = R (ix3 (i 0) (i 1) 2) := by
  rw [val_main_v52_apply, val_main_v51_apply, val_main_v14_apply]
  refine congrArg R (funext fun a => Fin.ext ?_)
  have h0 : (i 0).val < 16 := (i 0).isLt
  have h1 : (i 1).val < 6000 := (i 1).isLt
  have h2 : (i 2).val < 1 := (i 2).isLt
  match a with
  | ⟨0, _⟩ => show (((i 0).val * 6000 + (i 1).val) * 1 + (i 2).val) / 6000 = (i 0).val; omega
  | ⟨1, _⟩ => show (((i 0).val * 6000 + (i 1).val) * 1 + (i 2).val) / 1 % 6000 = (i 1).val; omega
  | ⟨2, _⟩ => rfl

theorem v54_at (R : FVec Ideal S16x6000x4 .f32) (i : S16x6000x1.Idx) :
    val_main_v54 (F := Ideal) R i = R (ix3 (i 0) (i 1) 0) := by
  rw [val_main_v54_apply, val_main_v53_apply, val_main_v14_apply]
  refine congrArg R (funext fun a => Fin.ext ?_)
  have h0 : (i 0).val < 16 := (i 0).isLt
  have h1 : (i 1).val < 6000 := (i 1).isLt
  have h2 : (i 2).val < 1 := (i 2).isLt
  match a with
  | ⟨0, _⟩ => show (((i 0).val * 6000 + (i 1).val) * 1 + (i 2).val) / 6000 = (i 0).val; omega
  | ⟨1, _⟩ => show (((i 0).val * 6000 + (i 1).val) * 1 + (i 2).val) / 1 % 6000 = (i 1).val; omega
  | ⟨2, _⟩ => rfl

theorem v57_at (R : FVec Ideal S16x6000x4 .f32) (i : S16x6000x1.Idx) :
    val_main_v57 (F := Ideal) R i = R (ix3 (i 0) (i 1) 3) := by
  rw [val_main_v57_apply, val_main_v56_apply, val_main_v14_apply]
  refine congrArg R (funext fun a => Fin.ext ?_)
  have h0 : (i 0).val < 16 := (i 0).isLt
  have h1 : (i 1).val < 6000 := (i 1).isLt
  have h2 : (i 2).val < 1 := (i 2).isLt
  match a with
  | ⟨0, _⟩ => show (((i 0).val * 6000 + (i 1).val) * 1 + (i 2).val) / 6000 = (i 0).val; omega
  | ⟨1, _⟩ => show (((i 0).val * 6000 + (i 1).val) * 1 + (i 2).val) / 1 % 6000 = (i 1).val; omega
  | ⟨2, _⟩ => rfl

theorem v59_at (R : FVec Ideal S16x6000x4 .f32) (i : S16x6000x1.Idx) :
    val_main_v59 (F := Ideal) R i = R (ix3 (i 0) (i 1) 1) := by
  rw [val_main_v59_apply, val_main_v58_apply, val_main_v14_apply]
  refine congrArg R (funext fun a => Fin.ext ?_)
  have h0 : (i 0).val < 16 := (i 0).isLt
  have h1 : (i 1).val < 6000 := (i 1).isLt
  have h2 : (i 2).val < 1 := (i 2).isLt
  match a with
  | ⟨0, _⟩ => show (((i 0).val * 6000 + (i 1).val) * 1 + (i 2).val) / 6000 = (i 0).val; omega
  | ⟨1, _⟩ => show (((i 0).val * 6000 + (i 1).val) * 1 + (i 2).val) / 1 % 6000 = (i 1).val; omega
  | ⟨2, _⟩ => rfl

theorem v19_at (B : FVec Ideal S16x512x4 .f32) (i : S16x1x512.Idx) :
    val_main_v19 (F := Ideal) B i = B (ix3 (i 0) (i 2) 0) := by
  rw [val_main_v19_apply, val_main_v18_apply, val_main_v15_apply]
  refine congrArg B (funext fun a => Fin.ext ?_)
  have h0 : (i 0).val < 16 := (i 0).isLt
  have h1 : (i 1).val < 1 := (i 1).isLt
  have h2 : (i 2).val < 512 := (i 2).isLt
  match a with
  | ⟨0, _⟩ => show (((i 0).val * 1 + (i 1).val) * 512 + (i 2).val) / 512 = (i 0).val; omega
  | ⟨1, _⟩ => show (((i 0).val * 1 + (i 1).val) * 512 + (i 2).val) / 1 % 512 = (i 2).val; omega
  | ⟨2, _⟩ => rfl

theorem v26_at (B : FVec Ideal S16x512x4 .f32) (i : S16x1x512.Idx) :
    val_main_v26 (F := Ideal) B i = B (ix3 (i 0) (i 2) 1) := by
  rw [val_main_v26_apply, val_main_v25_apply, val_main_v15_apply]
  refine congrArg B (funext fun a => Fin.ext ?_)
  have h0 : (i 0).val < 16 := (i 0).isLt
  have h1 : (i 1).val < 1 := (i 1).isLt
  have h2 : (i 2).val < 512 := (i 2).isLt
  match a with
  | ⟨0, _⟩ => show (((i 0).val * 1 + (i 1).val) * 512 + (i 2).val) / 512 = (i 0).val; omega
  | ⟨1, _⟩ => show (((i 0).val * 1 + (i 1).val) * 512 + (i 2).val) / 1 % 512 = (i 2).val; omega
  | ⟨2, _⟩ => rfl

theorem v33_at (B : FVec Ideal S16x512x4 .f32) (i : S16x1x512.Idx) :
    val_main_v33 (F := Ideal) B i = B (ix3 (i 0) (i 2) 2) := by
  rw [val_main_v33_apply, val_main_v32_apply, val_main_v15_apply]
  refine congrArg B (funext fun a => Fin.ext ?_)
  have h0 : (i 0).val < 16 := (i 0).isLt
  have h1 : (i 1).val < 1 := (i 1).isLt
  have h2 : (i 2).val < 512 := (i 2).isLt
  match a with
  | ⟨0, _⟩ => show (((i 0).val * 1 + (i 1).val) * 512 + (i 2).val) / 512 = (i 0).val; omega
  | ⟨1, _⟩ => show (((i 0).val * 1 + (i 1).val) * 512 + (i 2).val) / 1 % 512 = (i 2).val; omega
  | ⟨2, _⟩ => rfl

theorem v40_at (B : FVec Ideal S16x512x4 .f32) (i : S16x1x512.Idx) :
    val_main_v40 (F := Ideal) B i = B (ix3 (i 0) (i 2) 3) := by
  rw [val_main_v40_apply, val_main_v39_apply, val_main_v15_apply]
  refine congrArg B (funext fun a => Fin.ext ?_)
  have h0 : (i 0).val < 16 := (i 0).isLt
  have h1 : (i 1).val < 1 := (i 1).isLt
  have h2 : (i 2).val < 512 := (i 2).isLt
  match a with
  | ⟨0, _⟩ => show (((i 0).val * 1 + (i 1).val) * 512 + (i 2).val) / 512 = (i 0).val; omega
  | ⟨1, _⟩ => show (((i 0).val * 1 + (i 1).val) * 512 + (i 2).val) / 1 % 512 = (i 2).val; omega
  | ⟨2, _⟩ => rfl

theorem v63_at (B : FVec Ideal S16x512x4 .f32) (i : S16x1x512.Idx) :
    val_main_v63 (F := Ideal) B i = B (ix3 (i 0) (i 2) 2) := by
  rw [val_main_v63_apply, val_main_v62_apply, val_main_v15_apply]
  refine congrArg B (funext fun a => Fin.ext ?_)
  have h0 : (i 0).val < 16 := (i 0).isLt
  have h1 : (i 1).val < 1 := (i 1).isLt
  have h2 : (i 2).val < 512 := (i 2).isLt
  match a with
  | ⟨0, _⟩ => show (((i 0).val * 1 + (i 1).val) * 512 + (i 2).val) / 512 = (i 0).val; omega
  | ⟨1, _⟩ => show (((i 0).val * 1 + (i 1).val) * 512 + (i 2).val) / 1 % 512 = (i 2).val; omega
  | ⟨2, _⟩ => rfl

theorem v65_at (B : FVec Ideal S16x512x4 .f32) (i : S16x1x512.Idx) :
    val_main_v65 (F := Ideal) B i = B (ix3 (i 0) (i 2) 0) := by
  rw [val_main_v65_apply, val_main_v64_apply, val_main_v15_apply]
  refine congrArg B (funext fun a => Fin.ext ?_)
  have h0 : (i 0).val < 16 := (i 0).isLt
  have h1 : (i 1).val < 1 := (i 1).isLt
  have h2 : (i 2).val < 512 := (i 2).isLt
  match a with
  | ⟨0, _⟩ => show (((i 0).val * 1 + (i 1).val) * 512 + (i 2).val) / 512 = (i 0).val; omega
  | ⟨1, _⟩ => show (((i 0).val * 1 + (i 1).val) * 512 + (i 2).val) / 1 % 512 = (i 2).val; omega
  | ⟨2, _⟩ => rfl

theorem v68_at (B : FVec Ideal S16x512x4 .f32) (i : S16x1x512.Idx) :
    val_main_v68 (F := Ideal) B i = B (ix3 (i 0) (i 2) 3) := by
  rw [val_main_v68_apply, val_main_v67_apply, val_main_v15_apply]
  refine congrArg B (funext fun a => Fin.ext ?_)
  have h0 : (i 0).val < 16 := (i 0).isLt
  have h1 : (i 1).val < 1 := (i 1).isLt
  have h2 : (i 2).val < 512 := (i 2).isLt
  match a with
  | ⟨0, _⟩ => show (((i 0).val * 1 + (i 1).val) * 512 + (i 2).val) / 512 = (i 0).val; omega
  | ⟨1, _⟩ => show (((i 0).val * 1 + (i 1).val) * 512 + (i 2).val) / 1 % 512 = (i 2).val; omega
  | ⟨2, _⟩ => rfl

theorem v70_at (B : FVec Ideal S16x512x4 .f32) (i : S16x1x512.Idx) :
    val_main_v70 (F := Ideal) B i = B (ix3 (i 0) (i 2) 1) := by
  rw [val_main_v70_apply, val_main_v69_apply, val_main_v15_apply]
  refine congrArg B (funext fun a => Fin.ext ?_)
  have h0 : (i 0).val < 16 := (i 0).isLt
  have h1 : (i 1).val < 1 := (i 1).isLt
  have h2 : (i 2).val < 512 := (i 2).isLt
  match a with
  | ⟨0, _⟩ => show (((i 0).val * 1 + (i 1).val) * 512 + (i 2).val) / 512 = (i 0).val; omega
  | ⟨1, _⟩ => show (((i 0).val * 1 + (i 1).val) * 512 + (i 2).val) / 1 % 512 = (i 2).val; omega
  | ⟨2, _⟩ => rfl

/-! ### The eight coordinate arrays of shape [16, 6000, 512], at an index -/

theorem v20_at (R : FVec Ideal S16x6000x4 .f32) (b : Fin 16) (n : Fin 6000) (g : Fin 512) :
    val_main_v20 (F := Ideal) R (ix3 b n g) = R (ix3 b n 0) := by
  rw [val_main_v20_apply, v17_at]; rfl

theorem v27_at (R : FVec Ideal S16x6000x4 .f32) (b : Fin 16) (n : Fin 6000) (g : Fin 512) :
    val_main_v27 (F := Ideal) R (ix3 b n g) = R (ix3 b n 1) := by
  rw [val_main_v27_apply, v24_at]; rfl

theorem v34_at (R : FVec Ideal S16x6000x4 .f32) (b : Fin 16) (n : Fin 6000) (g : Fin 512) :
    val_main_v34 (F := Ideal) R (ix3 b n g) = R (ix3 b n 2) := by
  rw [val_main_v34_apply, v31_at]; rfl

theorem v41_at (R : FVec Ideal S16x6000x4 .f32) (b : Fin 16) (n : Fin 6000) (g : Fin 512) :
    val_main_v41 (F := Ideal) R (ix3 b n g) = R (ix3 b n 3) := by
  rw [val_main_v41_apply, v38_at]; rfl

theorem v21_at (B : FVec Ideal S16x512x4 .f32) (b : Fin 16) (n : Fin 6000) (g : Fin 512) :
    val_main_v21 (F := Ideal) B (ix3 b n g) = B (ix3 b g 0) := by
  rw [val_main_v21_apply, v19_at]; rfl

theorem v28_at (B : FVec Ideal S16x512x4 .f32) (b : Fin 16) (n : Fin 6000) (g : Fin 512) :
    val_main_v28 (F := Ideal) B (ix3 b n g) = B (ix3 b g 1) := by
  rw [val_main_v28_apply, v26_at]; rfl

theorem v35_at (B : FVec Ideal S16x512x4 .f32) (b : Fin 16) (n : Fin 6000) (g : Fin 512) :
    val_main_v35 (F := Ideal) B (ix3 b n g) = B (ix3 b g 2) := by
  rw [val_main_v35_apply, v33_at]; rfl

theorem v42_at (B : FVec Ideal S16x512x4 .f32) (b : Fin 16) (n : Fin 6000) (g : Fin 512) :
    val_main_v42 (F := Ideal) B (ix3 b n g) = B (ix3 b g 3) := by
  rw [val_main_v42_apply, v40_at]; rfl

/-- The area of box `(b, n)`, broadcast along the ground-truth axis. -/
theorem v73_at (R : FVec Ideal S16x6000x4 .f32) (b : Fin 16) (n : Fin 6000) (g : Fin 512) :
    val_main_v73 (F := Ideal) R (ix3 b n g)
      = (R (ix3 b n 2) - R (ix3 b n 0)) * (R (ix3 b n 3) - R (ix3 b n 1)) := by
  rw [val_main_v73_apply, val_main_v61_apply, val_main_v55_apply, val_main_v60_apply, v52_at, v54_at, v57_at, v59_at]; rfl

/-- The area of ground-truth box `(b, g)`, broadcast along the box axis. -/
theorem v74_at (B : FVec Ideal S16x512x4 .f32) (b : Fin 16) (n : Fin 6000) (g : Fin 512) :
    val_main_v74 (F := Ideal) B (ix3 b n g)
      = (B (ix3 b g 2) - B (ix3 b g 0)) * (B (ix3 b g 3) - B (ix3 b g 1)) := by
  rw [val_main_v74_apply, val_main_v72_apply, val_main_v66_apply, val_main_v71_apply, v63_at, v65_at, v68_at, v70_at]; rfl

/-- The overlap ratio of box `(b, n)` against ground-truth box `(b, g)`. -/
theorem v79_at (R : FVec Ideal S16x6000x4 .f32) (B : FVec Ideal S16x512x4 .f32) (b : Fin 16) (n : Fin 6000) (g : Fin 512) :
    val_main_v79 (F := Ideal) R B (ix3 b n g) = ratio (roi R b n) (gts B b g) := by
  simp only [val_main_v79_apply, val_main_v78_apply, val_main_v76_apply, val_main_v75_apply, val_main_v50_apply,
    val_main_v46_apply, val_main_v49_apply, val_main_v44_apply, val_main_v47_apply, val_main_v36_apply,
    val_main_v43_apply, val_main_v22_apply, val_main_v29_apply, val_main_v45_apply, val_main_v48_apply,
    val_main_v77_apply, v20_at, v27_at, v34_at, v41_at, v21_at, v28_at, v35_at, v42_at, v73_at, v74_at]
  rfl

/-! ### Liveness, the masked ratios and their maxima over the ground-truth axis -/

/-- The index `(b, n)` with `k` inserted on the coordinate axis is `(b, n, k)`. -/
theorem idx_v1_at (b : Fin 16) (n : Fin 6000) (k : Fin 4) : idx_main_v1 (ix2 b n) k = ix3 b n k := by
  funext a
  match a with
  | ⟨0, _⟩ => rfl
  | ⟨1, _⟩ => rfl
  | ⟨2, _⟩ => rfl

/-- The flag arrays are broadcast along the box axis: at `(b, n, g)` they are read at `(b, g)`. -/
theorem idx_v80_at (b : Fin 16) (n : Fin 6000) (g : Fin 512) :
    idx_main_v80 (idx_main_call0_v1 (ix3 b n g)) = ix2 b g := by
  funext a
  match a with
  | ⟨0, _⟩ => rfl
  | ⟨1, _⟩ => rfl

theorem idx_v83_at (b : Fin 16) (n : Fin 6000) (g : Fin 512) :
    idx_main_v83 (idx_main_call1_v1 (ix3 b n g)) = ix2 b g := by
  funext a
  match a with
  | ⟨0, _⟩ => rfl
  | ⟨1, _⟩ => rfl

/-- Box `(b, n)` is live: the reference's sum of absolute values starts from zero. -/
theorem v3_at (R : FVec Ideal S16x6000x4 .f32) (b : Fin 16) (n : Fin 6000) :
    val_main_v3 (F := Ideal) R (ix2 b n) = live (roi R b n) := by
  rw [val_main_v3_apply, val_main_v1_apply, val_main_v2_apply]
  have e0 : (val_main_cst (F := Ideal)) (Shape.Idx.first h_S_) = 0 := Ideal.ofBits_zero_f32
  rw [e0, zero_add]
  simp only [val_main_v0_apply, idx_v1_at]
  rfl

/-- The ratio kept for the non-crowd ground-truth boxes and replaced by zero for the others. -/
theorem v81_at (R : FVec Ideal S16x6000x4 .f32) (I : IVec S16x512 32) (B : FVec Ideal S16x512x4 .f32)
    (b : Fin 16) (n : Fin 6000) (g : Fin 512) :
    val_main_v81 (F := Ideal) R I B (ix3 b n g)
      = Scalar.select (ncSel I B b g) (ratio (roi R b n) (gts B b g)) zeroW := by
  rw [val_main_v81_apply, val_main_call0_v1_apply, val_main_v80_apply, val_main_call0_v2_apply, v79_at, idx_v80_at]
  rfl

/-- The ratio kept for the crowd ground-truth boxes and replaced by zero for the others. -/
theorem v84_at (R : FVec Ideal S16x6000x4 .f32) (I : IVec S16x512 32) (B : FVec Ideal S16x512x4 .f32)
    (b : Fin 16) (n : Fin 6000) (g : Fin 512) :
    val_main_v84 (F := Ideal) R I B (ix3 b n g)
      = Scalar.select (cSel I B b g) (ratio (roi R b n) (gts B b g)) zeroW := by
  rw [val_main_v84_apply, val_main_call1_v1_apply, val_main_v83_apply, val_main_call1_v2_apply, v79_at, idx_v83_at]
  rfl

/-- Dropping the last axis of [16, 6000, 512] leaves [16, 6000]. -/
theorem reduces_last : S16x6000x512.Reduces [2] S16x6000 := by decide

/-- The index `(b, n)` with `g` inserted on the dropped axis is `(b, n, g)`. -/
theorem lift_at (b : Fin 16) (n : Fin 6000) (g : Fin 512) :
    reduces_last.lift (ix2 b n) g = ix3 b n g := by
  funext a
  match a with
  | ⟨0, _⟩ => exact Fin.ext rfl
  | ⟨1, _⟩ => exact Fin.ext rfl
  | ⟨2, _⟩ => exact Fin.ext rfl

/-- The maximum over the ground-truth axis of the non-crowd masked ratios, from minus infinity. -/
theorem v82_at (R : FVec Ideal S16x6000x4 .f32) (I : IVec S16x512 32) (B : FVec Ideal S16x512x4 .f32)
    (b : Fin 16) (n : Fin 6000) :
    val_main_v82 (F := Ideal) R I B (ix2 b n)
      = (Finset.univ : Finset (Fin 512)).fold max bottomW
          (fun g => Scalar.select (ncSel I B b g) (ratio (roi R b n) (gts B b g)) zeroW) := by
  unfold val_main_v82
  rw [Host.reduce_eq_fold_single (FloatOps.maximumf (F := Ideal) (φ := .f32)) (val_main_v81 (F := Ideal) R I B)
    (val_main_cst_8 (F := Ideal)) reducesTo_S16x6000x512_S16x6000_d2 reduces_last h_S_]
  show (Finset.univ : Finset (Fin 512)).fold max bottomW
      (fun g : Fin 512 => val_main_v81 (F := Ideal) R I B (reduces_last.lift (ix2 b n) g)) = _
  exact Finset.fold_congr (fun g _ =>
    (congrArg (val_main_v81 (F := Ideal) R I B) (lift_at b n g)).trans (v81_at R I B b n g))

/-- The maximum over the ground-truth axis of the crowd masked ratios, from minus infinity. -/
theorem v85_at (R : FVec Ideal S16x6000x4 .f32) (I : IVec S16x512 32) (B : FVec Ideal S16x512x4 .f32)
    (b : Fin 16) (n : Fin 6000) :
    val_main_v85 (F := Ideal) R I B (ix2 b n)
      = (Finset.univ : Finset (Fin 512)).fold max bottomW
          (fun g => Scalar.select (cSel I B b g) (ratio (roi R b n) (gts B b g)) zeroW) := by
  unfold val_main_v85
  rw [Host.reduce_eq_fold_single (FloatOps.maximumf (F := Ideal) (φ := .f32)) (val_main_v84 (F := Ideal) R I B)
    (val_main_cst_10 (F := Ideal)) reducesTo_S16x6000x512_S16x6000_d2 reduces_last h_S_]
  show (Finset.univ : Finset (Fin 512)).fold max bottomW
      (fun g : Fin 512 => val_main_v84 (F := Ideal) R I B (reduces_last.lift (ix2 b n) g)) = _
  exact Finset.fold_congr (fun g _ =>
    (congrArg (val_main_v84 (F := Ideal) R I B) (lift_at b n g)).trans (v84_at R I B b n g))

/-! ### The four results -/

theorem nc_best (R : FVec Ideal S16x6000x4 .f32) (I : IVec S16x512 32) (B : FVec Ideal S16x512x4 .f32) (b : Fin 16) (n : Fin 6000) :
    val_main_v86 (F := Ideal) R I B (ix2 b n) = pickedBest (roi R b n) (gts B b) (ncSel I B b) := by
  rw [val_main_v86_apply, v3_at, v82_at, val_main_call2_v1_apply]
  rfl

theorem c_best (R : FVec Ideal S16x6000x4 .f32) (I : IVec S16x512 32) (B : FVec Ideal S16x512x4 .f32) (b : Fin 16) (n : Fin 6000) :
    val_main_v87 (F := Ideal) R I B (ix2 b n) = pickedBest (roi R b n) (gts B b) (cSel I B b) := by
  rw [val_main_v87_apply, v3_at, v85_at, val_main_call3_v1_apply]
  rfl

theorem pos_flag (R : FVec Ideal S16x6000x4 .f32) (I : IVec S16x512 32) (B : FVec Ideal S16x512x4 .f32) (b : Fin 16) (n : Fin 6000) :
    val_main_v90 (F := Ideal) R I B (ix2 b n)
      = posFlag (live (roi R b n)) (pickedBest (roi R b n) (gts B b) (ncSel I B b)) := by
  rw [val_main_v90_apply, val_main_v89_apply, nc_best, v3_at, val_main_v88_apply]
  rfl

theorem neg_flag (R : FVec Ideal S16x6000x4 .f32) (I : IVec S16x512 32) (B : FVec Ideal S16x512x4 .f32) (b : Fin 16) (n : Fin 6000) :
    val_main_v96 (F := Ideal) R I B (ix2 b n)
      = negFlag (live (roi R b n)) (pickedBest (roi R b n) (gts B b) (ncSel I B b)) (pickedBest (roi R b n) (gts B b) (cSel I B b)) := by
  rw [val_main_v96_apply, val_main_v93_apply, val_main_v92_apply, val_main_v95_apply, nc_best, c_best, v3_at,
    val_main_v91_apply, val_main_v94_apply]
  rfl

end Cert.ReferenceIdeal.RefValue

end
-- ==== Proof.Bridge.lean ====
/-
  The bridge: the kernel program's three results are the reference's three stages.

  The kernel's arrays are functions of the transposed, padded box array, the ground-truth boxes and two columns of 0/1
  weights; the reference's stages are functions of the box array, the ground-truth boxes and two arrays of one-bit flags.
  Where the transposed array holds the boxes' coordinates (every lane below 6000) and the weights are the flags read as
  numbers, the weighted best ratio is the picked best ratio (multiplying by a 0/1 weight is selecting: the specification's
  `weightedBest_flags`), and a flag written as a number and compared with one half is the flag (`gt_half_flag`); the lanes
  from 6000 on are cut away before anything is compared.
-/
import proofs.«173920_j8624294330475_1_alg».proof.Proof.KernelArrays
import proofs.«173920_j8624294330475_1_alg».proof.Proof.KernelTail
import proofs.«173920_j8624294330475_1_alg».proof.Proof.HostLayout
import proofs.«173920_j8624294330475_1_alg».proof.Proof.RefValue
import proofs.«173920_j8624294330475_1_alg».proof.Proof.Spec
import Idealize.ShloMosaic.Lib.ValueIdx

noncomputable section

namespace Cert.Bridge

open Cert.KernelIdeal Cert.KernelIdeal.Arrays Cert.KernelIdeal.Tail Cert.BoxOverlap
open Cert.ReferenceIdeal.ReadP
open Idealize.ShloMosaic Idealize.ShloMosaic.ValueIdx

/-! ### The kernel's arrays at a lane below 6000, in the reference's coordinate functions -/

/-- Where the transposed array holds the boxes' coordinates, its column at a lane below 6000 is the box. -/
theorem colOf_eq (R : FVec Ideal Cert.KernelIdeal.S16x6000x4 .f32) (P : FVec Ideal S16x4x6144 .f32)
    (hP : ∀ (b : Fin 16) (k : Fin 4) (n : Fin 6144) (hn : n.val < 6000), P (ix3 b k n) = R (ix3 b (⟨n.val, hn⟩ : Fin 6000) k))
    (b : Fin 16) (n : Fin 6000) (h : n.val < 6144) :
    colOf P b (⟨n.val, h⟩ : Fin 6144) = Cert.ReferenceIdeal.RefValue.roi R b n :=
  funext fun k => hP b k ⟨n.val, h⟩ n.isLt

/-- The best ratio weighted by a column of flags read as numbers is the best ratio picked by the flags. -/
theorem bestArr_at (R : FVec Ideal Cert.KernelIdeal.S16x6000x4 .f32) (B : FVec Ideal Cert.KernelIdeal.S16x512x4 .f32)
    (P : FVec Ideal S16x4x6144 .f32) (W : FVec Ideal S16x512x1 .f32) (sel : Fin 16 → Fin 512 → BitVec 1)
    (hW : ∀ (b : Fin 16) (g : Fin 512), W (ix3 b g (0 : Fin 1)) = (((sel b g).toNat : ℝ) : EReal))
    (b : Fin 16) (n : Fin 6000) (n' : Fin 6144) (hcol : colOf P b n' = Cert.ReferenceIdeal.RefValue.roi R b n) :
    bestArr P B W (ix3 b (0 : Fin 1) n')
      = pickedBest (Cert.ReferenceIdeal.RefValue.roi R b n) (Cert.ReferenceIdeal.RefValue.gts B b) (sel b) := by
  show weightedBest (colOf P b n') (gtOf B b) (wOf W b) = _
  rw [hcol, show wOf W b = (fun g => (((sel b g).toNat : ℝ) : EReal)) from funext (hW b)]
  exact weightedBest_flags _ _ _

/-- The first flag, written as a number and compared with one half, is the flag of the picked best ratio. -/
theorem posArr_at (R : FVec Ideal Cert.KernelIdeal.S16x6000x4 .f32) (B : FVec Ideal Cert.KernelIdeal.S16x512x4 .f32)
    (P : FVec Ideal S16x4x6144 .f32) (Wn : FVec Ideal S16x512x1 .f32) (seln : Fin 16 → Fin 512 → BitVec 1)
    (hWn : ∀ (b : Fin 16) (g : Fin 512), Wn (ix3 b g (0 : Fin 1)) = (((seln b g).toNat : ℝ) : EReal))
    (b : Fin 16) (n : Fin 6000) (n' : Fin 6144) (hcol : colOf P b n' = Cert.ReferenceIdeal.RefValue.roi R b n) :
    Ideal.cmp .ogt (posArr P B Wn (ix3 b (0 : Fin 1) n')) halfW
      = posFlag (live (Cert.ReferenceIdeal.RefValue.roi R b n))
          (pickedBest (Cert.ReferenceIdeal.RefValue.roi R b n) (Cert.ReferenceIdeal.RefValue.gts B b) (seln b)) := by
  show Ideal.cmp .ogt (((((posFlag (live (colOf P b n'))
    (weightedBest (colOf P b n') (gtOf B b) (wOf Wn b))).setWidth 32).toInt : ℤ) : ℝ) : EReal) halfW = _
  rw [gt_half_flag, hcol, show wOf Wn b = (fun g => (((seln b g).toNat : ℝ) : EReal)) from funext (hWn b),
    weightedBest_flags]

/-- The second flag, written as a number and compared with one half, is the flag of the two picked best ratios. -/
theorem negArr_at (R : FVec Ideal Cert.KernelIdeal.S16x6000x4 .f32) (B : FVec Ideal Cert.KernelIdeal.S16x512x4 .f32)
    (P : FVec Ideal S16x4x6144 .f32) (Wc Wn : FVec Ideal S16x512x1 .f32) (selc seln : Fin 16 → Fin 512 → BitVec 1)
    (hWc : ∀ (b : Fin 16) (g : Fin 512), Wc (ix3 b g (0 : Fin 1)) = (((selc b g).toNat : ℝ) : EReal))
    (hWn : ∀ (b : Fin 16) (g : Fin 512), Wn (ix3 b g (0 : Fin 1)) = (((seln b g).toNat : ℝ) : EReal))
    (b : Fin 16) (n : Fin 6000) (n' : Fin 6144) (hcol : colOf P b n' = Cert.ReferenceIdeal.RefValue.roi R b n) :
    Ideal.cmp .ogt (negArr P B Wc Wn (ix3 b (0 : Fin 1) n')) halfW
      = negFlag (live (Cert.ReferenceIdeal.RefValue.roi R b n))
          (pickedBest (Cert.ReferenceIdeal.RefValue.roi R b n) (Cert.ReferenceIdeal.RefValue.gts B b) (seln b))
          (pickedBest (Cert.ReferenceIdeal.RefValue.roi R b n) (Cert.ReferenceIdeal.RefValue.gts B b) (selc b)) := by
  show Ideal.cmp .ogt (((((negFlag (live (colOf P b n'))
    (weightedBest (colOf P b n') (gtOf B b) (wOf Wn b))
    (weightedBest (colOf P b n') (gtOf B b) (wOf Wc b))).setWidth 32).toInt : ℤ) : ℝ) : EReal) halfW = _
  rw [gt_half_flag, hcol, show wOf Wn b = (fun g => (((seln b g).toNat : ℝ) : EReal)) from funext (hWn b),
    show wOf Wc b = (fun g => (((selc b g).toNat : ℝ) : EReal)) from funext (hWc b),
    weightedBest_flags, weightedBest_flags]

/-! ### The three results -/

/-- The first output array, cut back, is the reference's best non-crowd ratio. -/
theorem best_nc (R : FVec Ideal Cert.KernelIdeal.S16x6000x4 .f32) (I : IVec Cert.KernelIdeal.S16x512 32) (B : FVec Ideal Cert.KernelIdeal.S16x512x4 .f32)
    (P : FVec Ideal S16x4x6144 .f32) (Wc Wn : FVec Ideal S16x512x1 .f32)
    (hP : ∀ (b : Fin 16) (k : Fin 4) (n : Fin 6144) (hn : n.val < 6000), P (ix3 b k n) = R (ix3 b (⟨n.val, hn⟩ : Fin 6000) k))
    (hWc : ∀ (b : Fin 16) (g : Fin 512), Wc (ix3 b g (0 : Fin 1)) = (((val_main_v10 (F := Ideal) I B (ix2 b g)).toNat : ℝ) : EReal))
    (hWn : ∀ (b : Fin 16) (g : Fin 512), Wn (ix3 b g (0 : Fin 1)) = (((val_main_v13 (F := Ideal) I B (ix2 b g)).toNat : ℝ) : EReal)) :
    cutLanes (bestArr P B Wn) = val_main_v86 (F := Ideal) R I B := by
  funext i
  obtain ⟨b, n, rfl⟩ : ∃ (b : Fin 16) (n : Fin 6000), i = ix2 b n := ⟨i 0, i 1, eq_ix2 i⟩
  unfold cutLanes
  rw [Cert.KernelIdeal.HostLayout.cutLanes_apply,
    bestArr_at R B P Wn (fun b g => val_main_v13 (F := Ideal) I B (ix2 b g)) hWn b n _ (colOf_eq R P hP b n _)]
  exact (Cert.ReferenceIdeal.RefValue.nc_best R I B b n).symm

/-- The second output array, cut back, is the reference's best crowd ratio. -/
theorem best_c (R : FVec Ideal Cert.KernelIdeal.S16x6000x4 .f32) (I : IVec Cert.KernelIdeal.S16x512 32) (B : FVec Ideal Cert.KernelIdeal.S16x512x4 .f32)
    (P : FVec Ideal S16x4x6144 .f32) (Wc Wn : FVec Ideal S16x512x1 .f32)
    (hP : ∀ (b : Fin 16) (k : Fin 4) (n : Fin 6144) (hn : n.val < 6000), P (ix3 b k n) = R (ix3 b (⟨n.val, hn⟩ : Fin 6000) k))
    (hWc : ∀ (b : Fin 16) (g : Fin 512), Wc (ix3 b g (0 : Fin 1)) = (((val_main_v10 (F := Ideal) I B (ix2 b g)).toNat : ℝ) : EReal))
    (hWn : ∀ (b : Fin 16) (g : Fin 512), Wn (ix3 b g (0 : Fin 1)) = (((val_main_v13 (F := Ideal) I B (ix2 b g)).toNat : ℝ) : EReal)) :
    cutLanes (bestArr P B Wc) = val_main_v87 (F := Ideal) R I B := by
  funext i
  obtain ⟨b, n, rfl⟩ : ∃ (b : Fin 16) (n : Fin 6000), i = ix2 b n := ⟨i 0, i 1, eq_ix2 i⟩
  unfold cutLanes
  rw [Cert.KernelIdeal.HostLayout.cutLanes_apply,
    bestArr_at R B P Wc (fun b g => val_main_v10 (F := Ideal) I B (ix2 b g)) hWc b n _ (colOf_eq R P hP b n _)]
  exact (Cert.ReferenceIdeal.RefValue.c_best R I B b n).symm

/-- The stacked result is the reference's. -/
theorem stack_eq (R : FVec Ideal Cert.KernelIdeal.S16x6000x4 .f32) (I : IVec Cert.KernelIdeal.S16x512 32) (B : FVec Ideal Cert.KernelIdeal.S16x512x4 .f32)
    (P : FVec Ideal S16x4x6144 .f32) (Wc Wn : FVec Ideal S16x512x1 .f32)
    (hP : ∀ (b : Fin 16) (k : Fin 4) (n : Fin 6144) (hn : n.val < 6000), P (ix3 b k n) = R (ix3 b (⟨n.val, hn⟩ : Fin 6000) k))
    (hWc : ∀ (b : Fin 16) (g : Fin 512), Wc (ix3 b g (0 : Fin 1)) = (((val_main_v10 (F := Ideal) I B (ix2 b g)).toNat : ℝ) : EReal))
    (hWn : ∀ (b : Fin 16) (g : Fin 512), Wn (ix3 b g (0 : Fin 1)) = (((val_main_v13 (F := Ideal) I B (ix2 b g)).toNat : ℝ) : EReal)) :
    stackTail (bestArr P B Wn) (bestArr P B Wc) = val_main_v99 (F := Ideal) R I B := by
  unfold stackTail val_main_v99 val_main_v97 val_main_v98
  rw [best_nc R I B P Wc Wn hP hWc hWn, best_c R I B P Wc Wn hP hWc hWn]

/-- The first flag result is the reference's. -/
theorem pos_eq (R : FVec Ideal Cert.KernelIdeal.S16x6000x4 .f32) (I : IVec Cert.KernelIdeal.S16x512 32) (B : FVec Ideal Cert.KernelIdeal.S16x512x4 .f32)
    (P : FVec Ideal S16x4x6144 .f32) (Wc Wn : FVec Ideal S16x512x1 .f32)
    (hP : ∀ (b : Fin 16) (k : Fin 4) (n : Fin 6144) (hn : n.val < 6000), P (ix3 b k n) = R (ix3 b (⟨n.val, hn⟩ : Fin 6000) k))
    (hWc : ∀ (b : Fin 16) (g : Fin 512), Wc (ix3 b g (0 : Fin 1)) = (((val_main_v10 (F := Ideal) I B (ix2 b g)).toNat : ℝ) : EReal))
    (hWn : ∀ (b : Fin 16) (g : Fin 512), Wn (ix3 b g (0 : Fin 1)) = (((val_main_v13 (F := Ideal) I B (ix2 b g)).toNat : ℝ) : EReal)) :
    flagTail (posArr P B Wn) = val_main_v90 (F := Ideal) R I B := by
  funext i
  obtain ⟨b, n, rfl⟩ : ∃ (b : Fin 16) (n : Fin 6000), i = ix2 b n := ⟨i 0, i 1, eq_ix2 i⟩
  unfold flagTail cutLanes
  rw [Cert.KernelIdeal.HostLayout.cutLanes_gt_half_apply,
    posArr_at R B P Wn (fun b g => val_main_v13 (F := Ideal) I B (ix2 b g)) hWn b n _ (colOf_eq R P hP b n _)]
  exact (Cert.ReferenceIdeal.RefValue.pos_flag R I B b n).symm

/-- The second flag result is the reference's. -/
theorem neg_eq (R : FVec Ideal Cert.KernelIdeal.S16x6000x4 .f32) (I : IVec Cert.KernelIdeal.S16x512 32) (B : FVec Ideal Cert.KernelIdeal.S16x512x4 .f32)
    (P : FVec Ideal S16x4x6144 .f32) (Wc Wn : FVec Ideal S16x512x1 .f32)
    (hP : ∀ (b : Fin 16) (k : Fin 4) (n : Fin 6144) (hn : n.val < 6000), P (ix3 b k n) = R (ix3 b (⟨n.val, hn⟩ : Fin 6000) k))
    (hWc : ∀ (b : Fin 16) (g : Fin 512), Wc (ix3 b g (0 : Fin 1)) = (((val_main_v10 (F := Ideal) I B (ix2 b g)).toNat : ℝ) : EReal))
    (hWn : ∀ (b : Fin 16) (g : Fin 512), Wn (ix3 b g (0 : Fin 1)) = (((val_main_v13 (F := Ideal) I B (ix2 b g)).toNat : ℝ) : EReal)) :
    flagTail (negArr P B Wc Wn) = val_main_v96 (F := Ideal) R I B := by
  funext i
  obtain ⟨b, n, rfl⟩ : ∃ (b : Fin 16) (n : Fin 6000), i = ix2 b n := ⟨i 0, i 1, eq_ix2 i⟩
  unfold flagTail cutLanes
  rw [Cert.KernelIdeal.HostLayout.cutLanes_gt_half_apply,
    negArr_at R B P Wc Wn (fun b g => val_main_v10 (F := Ideal) I B (ix2 b g))
      (fun b g => val_main_v13 (F := Ideal) I B (ix2 b g)) hWc hWn b n _ (colOf_eq R P hP b n _)]
  exact (Cert.ReferenceIdeal.RefValue.neg_flag R I B b n).symm

end Cert.Bridge

end
-- ==== Proof.lean ====
/-
  The certificate: a kernel that scores 6000 candidate boxes per batch against 512 ground-truth boxes — the best
  overlap ratio against the non-crowd boxes, the best against the crowd boxes, and two classification flags — computes,
  on the extended reals, what its plain array-program reference computes.

  Both programs evaluate the same overlap ratio for every pair of boxes and take the same maxima over the
  ground-truth axis; they differ in three ways that do not matter on the extended reals. The kernel restricts a maximum
  to a subfamily by multiplying each ratio by a 0/1 weight where the reference selects between the ratio and zero:
  `x * 1 = x` and `x * 0 = 0` hold for every extended real, so no finiteness of the inputs is used. The kernel works on
  the box array padded to a multiple of its tile and transposed, tile by tile: the padding lanes are cut away again
  before any result is formed, and the tiles cover the array. And the kernel hands its two flags back as the numbers 0
  and 1, which the host compares with one half: that comparison returns the flag.

  The modules: Spec (the mathematics over coordinate functions), BlockValue (what the kernel's body leaves in a block),
  KernelArrays (from blocks to whole arrays), KernelTail / HostLayout / KernelRun (the host operations around the region
  and the kernel program's run), RefRun / RefRead / RefResults / RefValue (the reference's run and its stages read at an
  index), Bridge (the two sides are one function). The frames of the two kernel programs are the generated ones; the
  reference's frame is its run with the results dropped. The idealization rewrote nothing, so `preserves` is `True`.
-/
import proofs.«173920_j8624294330475_1_alg».proof.Defs
import proofs.«173920_j8624294330475_1_alg».proof.Proof.Gen.Kernel
import proofs.«173920_j8624294330475_1_alg».proof.Proof.Gen.Kernel.Skeleton
import proofs.«173920_j8624294330475_1_alg».proof.Proof.Gen.Kernel.Launch
import proofs.«173920_j8624294330475_1_alg».proof.Proof.Gen.Kernel.Points
import proofs.«173920_j8624294330475_1_alg».proof.Proof.Gen.Kernel.Frame
import proofs.«173920_j8624294330475_1_alg».proof.Proof.Gen.KernelIdeal
import proofs.«173920_j8624294330475_1_alg».proof.Proof.Gen.KernelIdeal.Skeleton
import proofs.«173920_j8624294330475_1_alg».proof.Proof.Gen.KernelIdeal.Launch
import proofs.«173920_j8624294330475_1_alg».proof.Proof.Gen.KernelIdeal.Points
import proofs.«173920_j8624294330475_1_alg».proof.Proof.Gen.KernelIdeal.Frame
import proofs.«173920_j8624294330475_1_alg».proof.Proof.Gen.ReferenceIdeal
import proofs.«173920_j8624294330475_1_alg».proof.Proof.Gen.Pre_finite_inputs
import proofs.«173920_j8624294330475_1_alg».proof.Proof.RefRun
import proofs.«173920_j8624294330475_1_alg».proof.Proof.RefResults
import proofs.«173920_j8624294330475_1_alg».proof.Proof.KernelRun
import proofs.«173920_j8624294330475_1_alg».proof.Proof.Bridge
import Idealize.ShloMosaic.Adequacy
import Idealize.ShloMosaic.Init

noncomputable section

namespace Cert.Proof

open Idealize.ShloMosaic Idealize.SL.Sem Idealize.ShloMosaic.ValueIdx

/-- The kernel program computes the crowd flags by the reference's own host operations. -/
theorem crowdBits_eq (I : IVec Cert.KernelIdeal.S16x512 32) (B : FVec Ideal Cert.KernelIdeal.S16x512x4 .f32) :
    Cert.KernelIdeal.RunValue.crowdBits I B = Cert.ReferenceIdeal.ReadP.val_main_v10 (F := Ideal) I B := rfl

/-- … and the non-crowd flags likewise. -/
theorem plainBits_eq (I : IVec Cert.KernelIdeal.S16x512 32) (B : FVec Ideal Cert.KernelIdeal.S16x512x4 .f32) :
    Cert.KernelIdeal.RunValue.plainBits I B = Cert.ReferenceIdeal.ReadP.val_main_v13 (F := Ideal) I B := rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.ValueP.run (F := Ideal) m ρ)

/-- Both programs run, and their three results agree: the kernel's are the tail functions of its output arrays' closed
    forms, the reference's are its stages, and the bridge says these are one function of arguments that agree. -/
theorem algebraic : Cert.algebraic_KernelIdeal_ReferenceIdeal := by
  intro m ρ m' ρ' _ hagree
  refine ⟨_, _, _, Cert.KernelIdeal.RunValue.run m ρ, ?_⟩
  refine (θ_run Cert.ReferenceIdeal.defs _ _).mono (fun _ h c => ⟨?_, ?_, ?_, (h c).2.2.2.1, (h c).2.2.2.2.1, (h c).2.2.2.2.2⟩)
    (Cert.ReferenceIdeal.ValueP.run (F := Ideal) m' ρ')
  all_goals
    have hP := Cert.KernelIdeal.RunValue.entry_rois m c
    have hWc : ∀ (b : Fin 16) (g : Fin 512), Cert.KernelIdeal.Gen.V m c Cert.KernelIdeal.main_v13 (ix3 b g (0 : Fin 1))
        = (((Cert.ReferenceIdeal.ReadP.val_main_v10 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix2 b g)).toNat : ℝ) : EReal) :=
      fun b g => (Cert.KernelIdeal.RunValue.entry_crowd m c b g).trans (by rw [crowdBits_eq])
    have hWn : ∀ (b : Fin 16) (g : Fin 512), Cert.KernelIdeal.Gen.V m c Cert.KernelIdeal.main_v15 (ix3 b g (0 : Fin 1))
        = (((Cert.ReferenceIdeal.ReadP.val_main_v13 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix2 b g)).toNat : ℝ) : EReal) :=
      fun b g => (Cert.KernelIdeal.RunValue.entry_plain m c b g).trans (by rw [plainBits_eq])
    rw [Cert.KernelIdeal.Gen.V_main_arg2 m c]
  · rw [(h c).1, Cert.ReferenceIdeal.Results.res_v99, (hagree c).1, (hagree c).2.1, (hagree c).2.2]
    exact (Cert.Bridge.stack_eq _ _ _ _ _ _ hP hWc hWn).symm
  · rw [(h c).2.1, Cert.ReferenceIdeal.Results.res_v90, (hagree c).1, (hagree c).2.1, (hagree c).2.2]
    exact (Cert.Bridge.pos_eq _ _ _ _ _ _ hP hWc hWn).symm
  · rw [(h c).2.2.1, Cert.ReferenceIdeal.Results.res_v96, (hagree c).1, (hagree c).2.1, (hagree c).2.2]
    exact (Cert.Bridge.neg_eq _ _ _ _ _ _ hP hWc hWn).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
